-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x50257 : Shape := ⟨3, ![16, 256, 50257]⟩
abbrev S16x50 : Shape := ⟨2, ![16, 50]⟩
abbrev S_ : Shape := ⟨0, ![]⟩

class Facts : Prop where
  bcast_S_S16x256x50257 : S_.BroadcastsInDim S16x256x50257 (![] : Fin 0 → Fin S16x256x50257.rank)
  reducesTo_S16x256x50257_S_d0_1_2 : S16x256x50257.ReducesTo [0, 1, 2] S_
  h_S_ : 0 < S_.numel

variable [Facts]

def fn {F : FTy → Type} [FloatOps F] (main_arg0 : FVec F S16x256x50257 .f32) (main_arg1 : IVec S16x50 32) : IVec S_ 1 :=
  let main_v0 : FVec F S16x256x50257 .f32 := Host.absf main_arg0
  let main_cst : FVec F S_ .f32 := constant S_ .f32 0x7F800000#32
  let main_v1 : FVec F S16x256x50257 .f32 := broadcastInDim S16x256x50257 ![] bcast_S_S16x256x50257 main_cst
  let main_v2 : IVec S16x256x50257 1 := cmpf .olt main_v0 main_v1
  let main_c : IVec S_ 1 := constantI S_ 1 1#1
  let main_v3 : IVec S_ 1 := (fun x v => Host.reduce IntOp.andi x v reducesTo_S16x256x50257_S_d0_1_2 h_S_) main_v2 main_c
  main_v3
-- ==== Kernel.lean ====
abbrev S16x256x50257 : Shape := ⟨3, ![16, 256, 50257]⟩
abbrev S16x50 : Shape := ⟨2, ![16, 50]⟩
abbrev S16x50257 : Shape := ⟨2, ![16, 50257]⟩
abbrev S16x256x512 : Shape := ⟨3, ![16, 256, 512]⟩
abbrev S16x512 : Shape := ⟨2, ![16, 512]⟩
abbrev S_ : Shape := ⟨0, ![]⟩
abbrev S1 : Shape := ⟨1, ![1]⟩
abbrev S16 : Shape := ⟨1, ![16]⟩
abbrev S16x1 : Shape := ⟨2, ![16, 1]⟩
abbrev S16x50x1 : Shape := ⟨3, ![16, 50, 1]⟩
abbrev S16x50x2 : Shape := ⟨3, ![16, 50, 2]⟩

abbrev nBuf : Space → Nat
  | .hbm => 100
  | .vmem => 4
  | .smem => 0
  | _ => 0

abbrev bufTy : (tb : Table) → Fin (tcTables nBuf tb) → BufTy
  | .hbm, ⟨0, _⟩ => ⟨S16x256x50257, .f32⟩
  | .hbm, ⟨1, _⟩ => ⟨S16x50, .i32⟩
  | .hbm, ⟨2, _⟩ => ⟨S16x50257, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S16, .f32⟩
  | .hbm, ⟨7, _⟩ => ⟨S16x50257, .f32⟩
  | .hbm, ⟨8, _⟩ => ⟨S_, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16x1, .f32⟩
  | .hbm, ⟨14, _⟩ => ⟨S16x50257, .f32⟩
  | .hbm, ⟨15, _⟩ => ⟨S16x50257, .f32⟩
  | .hbm, ⟨16, _⟩ => ⟨S16x50257, .f32⟩
  | .hbm, ⟨17, _⟩ => ⟨S_, .f32⟩
  | .hbm, ⟨18, _⟩ => ⟨S16, .f32⟩
  | .hbm, ⟨19, _⟩ => ⟨S16x1, .f32⟩
  | .hbm, ⟨20, _⟩ => ⟨S16x1, .f32⟩
  | .hbm, ⟨21, _⟩ => ⟨S16x50257, .f32⟩
  | .hbm, ⟨22, _⟩ => ⟨S16x50257, .f32⟩
  | .hbm, ⟨23, _⟩ => ⟨S_, .i1⟩
  | .hbm, ⟨24, _⟩ => ⟨S16x50, .i1⟩
  | .hbm, ⟨25, _⟩ => ⟨S_, .i32⟩
  | .hbm, ⟨26, _⟩ => ⟨S16x50, .i32⟩
  | .hbm, ⟨27, _⟩ => ⟨S16x50, .i1⟩
  | .hbm, ⟨28, _⟩ => ⟨S16x50, .i1⟩
  | .hbm, ⟨29, _⟩ => ⟨S_, .i32⟩
  | .hbm, ⟨30, _⟩ => ⟨S16x50, .i32⟩
  | .hbm, ⟨31, _⟩ => ⟨S16x50, .i1⟩
  | .hbm, ⟨32, _⟩ => ⟨S16x50, .i1⟩
  | .hbm, ⟨33, _⟩ => ⟨S_, .i32⟩
  | .hbm, ⟨34, _⟩ => ⟨S16x50, .i32⟩
  | .hbm, ⟨35, _⟩ => ⟨S16x50, .i1⟩
  | .hbm, ⟨36, _⟩ => ⟨S16x50, .i1⟩
  | .hbm, ⟨37, _⟩ => ⟨S_, .i32⟩
  | .hbm, ⟨38, _⟩ => ⟨S16x50, .i32⟩
  | .hbm, ⟨39, _⟩ => ⟨S16x50, .i1⟩
  | .hbm, ⟨40, _⟩ => ⟨S16x50, .i1⟩
  | .hbm, ⟨41, _⟩ => ⟨S_, .i32⟩
  | .hbm, ⟨42, _⟩ => ⟨S16x50, .i32⟩
  | .hbm, ⟨43, _⟩ => ⟨S16x50, .i1⟩
  | .hbm, ⟨44, _⟩ => ⟨S16x50, .i1⟩
  | .hbm, ⟨45, _⟩ => ⟨S_, .i32⟩
  | .hbm, ⟨46, _⟩ => ⟨S_, .i32⟩
  | .hbm, ⟨47, _⟩ => ⟨S16x50, .i32⟩
  | .hbm, ⟨48, _⟩ => ⟨S16x50, .i32⟩
  | .hbm, ⟨49, _⟩ => ⟨S16, .i32⟩
  | .hbm, ⟨50, _⟩ => ⟨S16x1, .i32⟩
  | .hbm, ⟨51, _⟩ => ⟨S_, .f32⟩
  | .hbm, ⟨52, _⟩ => ⟨S16x50257, .f32⟩
  | .hbm, ⟨53, _⟩ => ⟨S_, .i32⟩
  | .hbm, ⟨54, _⟩ => ⟨S16x1, .i32⟩
  | .hbm, ⟨55, _⟩ => ⟨S16x1, .i1⟩
  | .hbm, ⟨56, _⟩ => ⟨S_, .i32⟩
  | .hbm, ⟨57, _⟩ => ⟨S16x1, .i32⟩
  | .hbm, ⟨58, _⟩ => ⟨S16x1, .i32⟩
  | .hbm, ⟨59, _⟩ => ⟨S16x1, .i32⟩
  | .hbm, ⟨60, _⟩ => ⟨S_, .i32⟩
  | .hbm, ⟨61, _⟩ => ⟨S16x50, .i32⟩
  | .hbm, ⟨62, _⟩ => ⟨S16x50, .i1⟩
  | .hbm, ⟨63, _⟩ => ⟨S_, .i32⟩
  | .hbm, ⟨64, _⟩ => ⟨S16x50, .i32⟩
  | .hbm, ⟨65, _⟩ => ⟨S16x50, .i32⟩
  | .hbm, ⟨66, _⟩ => ⟨S16x50, .i32⟩
  | .hbm, ⟨67, _⟩ => ⟨S16x50, .i32⟩
  | .hbm, ⟨68, _⟩ => ⟨S16x50x1, .i32⟩
  | .hbm, ⟨69, _⟩ => ⟨S16x50x1, .i32⟩
  | .hbm, ⟨70, _⟩ => ⟨S16x50x2, .i32⟩
  | .hbm, ⟨71, _⟩ => ⟨S_, .f32⟩
  | .hbm, ⟨72, _⟩ => ⟨S16x50, .f32⟩
  | .hbm, ⟨73, _⟩ => ⟨S16x50257, .f32⟩
  | .hbm, ⟨74, _⟩ => ⟨S_, .i32⟩
  | .hbm, ⟨75, _⟩ => ⟨S1, .i32⟩
  | .hbm, ⟨76, _⟩ => ⟨S_, .f32⟩
  | .hbm, ⟨77, _⟩ => ⟨S16, .f32⟩
  | .hbm, ⟨78, _⟩ => ⟨S16x50257, .f32⟩
  | .hbm, ⟨79, _⟩ => ⟨S_, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S16x1, .f32⟩
  | .hbm, ⟨85, _⟩ => ⟨S16x50257, .f32⟩
  | .hbm, ⟨86, _⟩ => ⟨S16x50257, .f32⟩
  | .hbm, ⟨87, _⟩ => ⟨S16x50257, .f32⟩
  | .hbm, ⟨88, _⟩ => ⟨S_, .f32⟩
  | .hbm, ⟨89, _⟩ => ⟨S16, .f32⟩
  | .hbm, ⟨90, _⟩ => ⟨S16x1, .f32⟩
  | .hbm, ⟨91, _⟩ => ⟨S16x50257, .f32⟩
  | .hbm, ⟨92, _⟩ => ⟨S16x50257, .f32⟩
  | .hbm, ⟨93, _⟩ => ⟨S16x50257, .f32⟩
  | .hbm, ⟨94, _⟩ => ⟨S16x50257, .f32⟩
  | .hbm, ⟨95, _⟩ => ⟨S16x50257, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S16x256x512, .f32⟩
  | .local _ .vmem, ⟨1, _⟩ => ⟨S16x256x512, .f32⟩
  | .local _ .vmem, ⟨2, _⟩ => ⟨S16x512, .f32⟩
  | .local _ .vmem, ⟨3, _⟩ => ⟨S16x512, .f32⟩
  | _, _ => ⟨S16x256x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_call1_v0 : Ref sig .tc := ⟨.hbm, 46, rfl⟩
abbrev main_call1_v1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_c_8 : Ref sig .tc := ⟨.hbm, 53, rfl⟩
abbrev main_v25 : Ref sig .tc := ⟨.hbm, 54, rfl⟩
abbrev main_v26 : Ref sig .tc := ⟨.hbm, 55, rfl⟩
abbrev main_c_9 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_10 : Ref sig .tc := ⟨.hbm, 60, rfl⟩
abbrev main_v30 : Ref sig .tc := ⟨.hbm, 61, rfl⟩
abbrev main_v31 : Ref sig .tc := ⟨.hbm, 62, rfl⟩
abbrev main_c_11 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_12 : Ref sig .tc := ⟨.hbm, 71, rfl⟩
abbrev main_v39 : Ref sig .tc := ⟨.hbm, 72, rfl⟩
abbrev main_v40 : Ref sig .tc := ⟨.hbm, 73, rfl⟩
abbrev main_c_13 : Ref sig .tc := ⟨.hbm, 74, rfl⟩
abbrev main_v41 : Ref sig .tc := ⟨.hbm, 75, rfl⟩
abbrev main_cst_14 : Ref sig .tc := ⟨.hbm, 76, rfl⟩
abbrev main_v42 : Ref sig .tc := ⟨.hbm, 77, rfl⟩
abbrev main_v43 : Ref sig .tc := ⟨.hbm, 78, rfl⟩
abbrev main_cst_15 : Ref sig .tc := ⟨.hbm, 79, rfl⟩
abbrev main_v44 : Ref sig .tc := ⟨.hbm, 80, rfl⟩
abbrev main_cst_16 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_17 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_18 : Ref sig .tc := ⟨.hbm, 96, rfl⟩
abbrev main_v58 : Ref sig .tc := ⟨.hbm, 97, rfl⟩
abbrev main_cst_19 : Ref sig .tc := ⟨.hbm, 98, rfl⟩
abbrev main_v59 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![99], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x256x512_S16x256x512_0_0_0 : ∀ a, (![0, 0, 0] : Fin 3 → Nat) a + S16x256x512.size a ≤ S16x256x512.size a
  h_S16x256x512 : 0 < S16x256x512.numel
  reduces_S16x256x512_S16x512 : S16x256x512.Reduces [1] S16x512
  inb_S16x512_S16x512_0_0 : ∀ a, (![0, 0] : Fin 2 → Nat) a + S16x512.size a ≤ S16x512.size a
  h_S16x512 : 0 < S16x512.numel
  bcast_S_S1 : S_.BroadcastsInDim S1 (![] : Fin 0 → Fin S1.rank)
  bcast_S_S16 : S_.BroadcastsInDim S16 (![] : Fin 0 → Fin S16.rank)
  reducesTo_S16x50257_S16_d1 : S16x50257.ReducesTo [1] S16
  h_S_ : 0 < S_.numel
  bcast_S16_S16x1_0 : S16.BroadcastsInDim S16x1 (![0] : Fin 1 → Fin S16x1.rank)
  bcast_S16x1_S16x50257_0_1 : S16x1.BroadcastsInDim S16x50257 (![0, 1] : Fin 2 → Fin S16x50257.rank)
  bcast_S_S16x50 : S_.BroadcastsInDim S16x50 (![] : Fin 0 → Fin S16x50.rank)
  bcast_S_S16x50257 : S_.BroadcastsInDim S16x50257 (![] : Fin 0 → Fin S16x50257.rank)
  bcast_S_S16x1 : S_.BroadcastsInDim S16x1 (![] : Fin 0 → Fin S16x1.rank)
  bcast_S16x1_S16x50_0_1 : S16x1.BroadcastsInDim S16x50 (![0, 1] : Fin 2 → Fin S16x50.rank)
  bcast_S16x50_S16x50x1_0_1 : S16x50.BroadcastsInDim S16x50x1 (![0, 1] : Fin 2 → Fin S16x50x1.rank)
  concatenates_S16x50x1_S16x50x1_S16x50x2_d2 : Shape.Concatenates [S16x50x1, S16x50x1] S16x50x2 2
  reducesTo_S16x50257_S_d0_1 : S16x50257.ReducesTo [0, 1] S_
  scatter_S16x50257_S1_S16_0_1_1_0_wf : ScatterDims.WF S16x50257 S1 S16 [0] [1] [1] 0
  scatter_S16x50257_S16x50x2_S16x50_n_01_01_2_wf : ScatterDims.WF S16x50257 S16x50x2 S16x50 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x256x512.size a < S16x256x50257.size a
  hwx0_0 : ∀ i : grid0.Coords, EltTy.bits .f32 = 32 ∨ (Rect.unit (s := S16x256x50257) (fun a => cc0_transform_0 i a * S16x256x512.size a) (fun a => (Pipeline.Clip.of (cc0_transform_0 i a) (S16x256x512.size a) (S16x256x50257.size a)).extent (S16x256x512.size a)) fun a => Pipeline.Clip.inb (Pipeline.Clip.ok_of (hstart0_0 i a))).WholeWords (EltTy.packing .f32)
  hwxs0_0 : ∀ i : grid0.Coords, EltTy.bits .f32 = 32 ∨ (Rect.unit (s := S16x256x512) (fun _ => 0) (fun a => (Pipeline.Clip.of (cc0_transform_0 i a) (S16x256x512.size a) (S16x256x50257.size a)).extent (S16x256x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16x512.size a < S16x50257.size a
  hwx0_1 : ∀ i : grid0.Coords, EltTy.bits .f32 = 32 ∨ (Rect.unit (s := S16x50257) (fun a => cc0_transform_1 i a * S16x512.size a) (fun a => (Pipeline.Clip.of (cc0_transform_1 i a) (S16x512.size a) (S16x50257.size a)).extent (S16x512.size a)) fun a => Pipeline.Clip.inb (Pipeline.Clip.ok_of (hstart0_1 i a))).WholeWords (EltTy.packing .f32)
  hwxs0_1 : ∀ i : grid0.Coords, EltTy.bits .f32 = 32 ∨ (Rect.unit (s := S16x512) (fun _ => 0) (fun a => (Pipeline.Clip.of (cc0_transform_1 i a) (S16x512.size a) (S16x50257.size a)).extent (S16x512.size a)) fun a => (Nat.zero_add _).trans_le (Pipeline.Clip.extent_le (Pipeline.Clip.ok_of (hstart0_1 i a)))).WholeWords (EltTy.packing .f32)

variable [Facts₀]

def scatter_S16x50257_S1_S16_0_1_1_0 : ScatterDims S16x50257 S1 S16 where
  updateWindowDims := [0]
  insertedWindowDims := [1]
  scatterDimsToOperandDims := [1]
  indexVectorDim := 0
  wf := scatter_S16x50257_S1_S16_0_1_1_0_wf
def scatter_S16x50257_S16x50x2_S16x50_n_01_01_2 : ScatterDims S16x50257 S16x50x2 S16x50 where
  updateWindowDims := []
  insertedWindowDims := [0, 1]
  scatterDimsToOperandDims := [0, 1]
  indexVectorDim := 2
  wf := scatter_S16x50257_S16x50x2_S16x50_n_01_01_2_wf

abbrev win0_0 : Pipeline.Window sig grid0 :=
  Pipeline.Window.ofSpecClip (Memref.whole main_arg0) S16x256x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S16x512.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x50257 : Shape := ⟨3, ![16, 256, 50257]⟩
abbrev S16x50 : Shape := ⟨2, ![16, 50]⟩
abbrev S_ : Shape := ⟨0, ![]⟩
abbrev S16x50257 : Shape := ⟨2, ![16, 50257]⟩
abbrev S1 : Shape := ⟨1, ![1]⟩
abbrev S16 : Shape := ⟨1, ![16]⟩
abbrev S16x1 : Shape := ⟨2, ![16, 1]⟩
abbrev S16x50x1 : Shape := ⟨3, ![16, 50, 1]⟩
abbrev S16x50x2 : Shape := ⟨3, ![16, 50, 2]⟩

abbrev nBuf : Space → Nat
  | .hbm => 104
  | .vmem => 0
  | .smem => 0
  | _ => 0

abbrev bufTy : (tb : Table) → Fin (tcTables nBuf tb) → BufTy
  | .hbm, ⟨0, _⟩ => ⟨S16x256x50257, .f32⟩
  | .hbm, ⟨1, _⟩ => ⟨S16x50, .i32⟩
  | .hbm, ⟨2, _⟩ => ⟨S_, .f32⟩
  | .hbm, ⟨3, _⟩ => ⟨S16x50257, .f32⟩
  | .hbm, ⟨4, _⟩ => ⟨S_, .f32⟩
  | .hbm, ⟨5, _⟩ => ⟨S16x50257, .f32⟩
  | .hbm, ⟨6, _⟩ => ⟨S16x50257, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S16, .f32⟩
  | .hbm, ⟨11, _⟩ => ⟨S16x50257, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S16x50257, .f32⟩
  | .hbm, ⟨19, _⟩ => ⟨S16x50257, .f32⟩
  | .hbm, ⟨20, _⟩ => ⟨S16x50257, .f32⟩
  | .hbm, ⟨21, _⟩ => ⟨S_, .f32⟩
  | .hbm, ⟨22, _⟩ => ⟨S16, .f32⟩
  | .hbm, ⟨23, _⟩ => ⟨S16x1, .f32⟩
  | .hbm, ⟨24, _⟩ => ⟨S16x1, .f32⟩
  | .hbm, ⟨25, _⟩ => ⟨S16x50257, .f32⟩
  | .hbm, ⟨26, _⟩ => ⟨S16x50257, .f32⟩
  | .hbm, ⟨27, _⟩ => ⟨S_, .i1⟩
  | .hbm, ⟨28, _⟩ => ⟨S16x50, .i1⟩
  | .hbm, ⟨29, _⟩ => ⟨S_, .i32⟩
  | .hbm, ⟨30, _⟩ => ⟨S16x50, .i32⟩
  | .hbm, ⟨31, _⟩ => ⟨S16x50, .i1⟩
  | .hbm, ⟨32, _⟩ => ⟨S16x50, .i1⟩
  | .hbm, ⟨33, _⟩ => ⟨S_, .i32⟩
  | .hbm, ⟨34, _⟩ => ⟨S16x50, .i32⟩
  | .hbm, ⟨35, _⟩ => ⟨S16x50, .i1⟩
  | .hbm, ⟨36, _⟩ => ⟨S16x50, .i1⟩
  | .hbm, ⟨37, _⟩ => ⟨S_, .i32⟩
  | .hbm, ⟨38, _⟩ => ⟨S16x50, .i32⟩
  | .hbm, ⟨39, _⟩ => ⟨S16x50, .i1⟩
  | .hbm, ⟨40, _⟩ => ⟨S16x50, .i1⟩
  | .hbm, ⟨41, _⟩ => ⟨S_, .i32⟩
  | .hbm, ⟨42, _⟩ => ⟨S16x50, .i32⟩
  | .hbm, ⟨43, _⟩ => ⟨S16x50, .i1⟩
  | .hbm, ⟨44, _⟩ => ⟨S16x50, .i1⟩
  | .hbm, ⟨45, _⟩ => ⟨S_, .i32⟩
  | .hbm, ⟨46, _⟩ => ⟨S16x50, .i32⟩
  | .hbm, ⟨47, _⟩ => ⟨S16x50, .i1⟩
  | .hbm, ⟨48, _⟩ => ⟨S16x50, .i1⟩
  | .hbm, ⟨49, _⟩ => ⟨S_, .i32⟩
  | .hbm, ⟨50, _⟩ => ⟨S_, .i32⟩
  | .hbm, ⟨51, _⟩ => ⟨S16x50, .i32⟩
  | .hbm, ⟨52, _⟩ => ⟨S16x50, .i32⟩
  | .hbm, ⟨53, _⟩ => ⟨S16, .i32⟩
  | .hbm, ⟨54, _⟩ => ⟨S16x1, .i32⟩
  | .hbm, ⟨55, _⟩ => ⟨S_, .f32⟩
  | .hbm, ⟨56, _⟩ => ⟨S16x50257, .f32⟩
  | .hbm, ⟨57, _⟩ => ⟨S_, .i32⟩
  | .hbm, ⟨58, _⟩ => ⟨S16x1, .i32⟩
  | .hbm, ⟨59, _⟩ => ⟨S16x1, .i1⟩
  | .hbm, ⟨60, _⟩ => ⟨S_, .i32⟩
  | .hbm, ⟨61, _⟩ => ⟨S16x1, .i32⟩
  | .hbm, ⟨62, _⟩ => ⟨S16x1, .i32⟩
  | .hbm, ⟨63, _⟩ => ⟨S16x1, .i32⟩
  | .hbm, ⟨64, _⟩ => ⟨S_, .i32⟩
  | .hbm, ⟨65, _⟩ => ⟨S16x50, .i32⟩
  | .hbm, ⟨66, _⟩ => ⟨S16x50, .i1⟩
  | .hbm, ⟨67, _⟩ => ⟨S_, .i32⟩
  | .hbm, ⟨68, _⟩ => ⟨S16x50, .i32⟩
  | .hbm, ⟨69, _⟩ => ⟨S16x50, .i32⟩
  | .hbm, ⟨70, _⟩ => ⟨S16x50, .i32⟩
  | .hbm, ⟨71, _⟩ => ⟨S16x50, .i32⟩
  | .hbm, ⟨72, _⟩ => ⟨S16x50x1, .i32⟩
  | .hbm, ⟨73, _⟩ => ⟨S16x50x1, .i32⟩
  | .hbm, ⟨74, _⟩ => ⟨S16x50x2, .i32⟩
  | .hbm, ⟨75, _⟩ => ⟨S_, .f32⟩
  | .hbm, ⟨76, _⟩ => ⟨S16x50, .f32⟩
  | .hbm, ⟨77, _⟩ => ⟨S16x50257, .f32⟩
  | .hbm, ⟨78, _⟩ => ⟨S_, .i32⟩
  | .hbm, ⟨79, _⟩ => ⟨S1, .i32⟩
  | .hbm, ⟨80, _⟩ => ⟨S_, .f32⟩
  | .hbm, ⟨81, _⟩ => ⟨S16, .f32⟩
  | .hbm, ⟨82, _⟩ => ⟨S16x50257, .f32⟩
  | .hbm, ⟨83, _⟩ => ⟨S_, .f32⟩
  | .hbm, ⟨84, _⟩ => ⟨S16, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S16x1, .f32⟩
  | .hbm, ⟨89, _⟩ => ⟨S16x50257, .f32⟩
  | .hbm, ⟨90, _⟩ => ⟨S16x50257, .f32⟩
  | .hbm, ⟨91, _⟩ => ⟨S16x50257, .f32⟩
  | .hbm, ⟨92, _⟩ => ⟨S_, .f32⟩
  | .hbm, ⟨93, _⟩ => ⟨S16, .f32⟩
  | .hbm, ⟨94, _⟩ => ⟨S16x1, .f32⟩
  | .hbm, ⟨95, _⟩ => ⟨S16x50257, .f32⟩
  | .hbm, ⟨96, _⟩ => ⟨S16x50257, .f32⟩
  | .hbm, ⟨97, _⟩ => ⟨S16x50257, .f32⟩
  | .hbm, ⟨98, _⟩ => ⟨S16x50257, .f32⟩
  | .hbm, ⟨99, _⟩ => ⟨S16x50257, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S16x256x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_4 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_6 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_7 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_8 : Ref sig .tc := ⟨.hbm, 49, rfl⟩
abbrev main_call1_v0 : Ref sig .tc := ⟨.hbm, 50, rfl⟩
abbrev main_call1_v1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_9 : Ref sig .tc := ⟨.hbm, 55, rfl⟩
abbrev main_v26 : Ref sig .tc := ⟨.hbm, 56, rfl⟩
abbrev main_c_10 : Ref sig .tc := ⟨.hbm, 57, rfl⟩
abbrev main_v27 : Ref sig .tc := ⟨.hbm, 58, rfl⟩
abbrev main_v28 : Ref sig .tc := ⟨.hbm, 59, rfl⟩
abbrev main_c_11 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_12 : Ref sig .tc := ⟨.hbm, 64, rfl⟩
abbrev main_v32 : Ref sig .tc := ⟨.hbm, 65, rfl⟩
abbrev main_v33 : Ref sig .tc := ⟨.hbm, 66, rfl⟩
abbrev main_c_13 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_14 : Ref sig .tc := ⟨.hbm, 75, rfl⟩
abbrev main_v41 : Ref sig .tc := ⟨.hbm, 76, rfl⟩
abbrev main_v42 : Ref sig .tc := ⟨.hbm, 77, rfl⟩
abbrev main_c_15 : Ref sig .tc := ⟨.hbm, 78, rfl⟩
abbrev main_v43 : Ref sig .tc := ⟨.hbm, 79, rfl⟩
abbrev main_cst_16 : Ref sig .tc := ⟨.hbm, 80, rfl⟩
abbrev main_v44 : Ref sig .tc := ⟨.hbm, 81, rfl⟩
abbrev main_v45 : Ref sig .tc := ⟨.hbm, 82, rfl⟩
abbrev main_cst_17 : Ref sig .tc := ⟨.hbm, 83, rfl⟩
abbrev main_v46 : Ref sig .tc := ⟨.hbm, 84, rfl⟩
abbrev main_cst_18 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_19 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_20 : Ref sig .tc := ⟨.hbm, 100, rfl⟩
abbrev main_v60 : Ref sig .tc := ⟨.hbm, 101, rfl⟩
abbrev main_cst_21 : Ref sig .tc := ⟨.hbm, 102, rfl⟩
abbrev main_v61 : Ref sig .tc := ⟨.hbm, 103, rfl⟩

abbrev nD : Nat := 1
abbrev τ : Topo := Topo.v7x

variable {F : FTy → Type} [FloatOps F]

class Facts₀ : Prop where
  reducesTo_S16x256x50257_S16x50257_d1 : S16x256x50257.ReducesTo [1] S16x50257
  h_S_ : 0 < S_.numel
  bcast_S_S16x50257 : S_.BroadcastsInDim S16x50257 (![] : Fin 0 → Fin S16x50257.rank)
  bcast_S_S1 : S_.BroadcastsInDim S1 (![] : Fin 0 → Fin S1.rank)
  bcast_S_S16 : S_.BroadcastsInDim S16 (![] : Fin 0 → Fin S16.rank)
  reducesTo_S16x50257_S16_d1 : S16x50257.ReducesTo [1] S16
  bcast_S16_S16x1_0 : S16.BroadcastsInDim S16x1 (![0] : Fin 1 → Fin S16x1.rank)
  bcast_S16x1_S16x50257_0_1 : S16x1.BroadcastsInDim S16x50257 (![0, 1] : Fin 2 → Fin S16x50257.rank)
  bcast_S_S16x50 : S_.BroadcastsInDim S16x50 (![] : Fin 0 → Fin S16x50.rank)
  bcast_S_S16x1 : S_.BroadcastsInDim S16x1 (![] : Fin 0 → Fin S16x1.rank)
  bcast_S16x1_S16x50_0_1 : S16x1.BroadcastsInDim S16x50 (![0, 1] : Fin 2 → Fin S16x50.rank)
  bcast_S16x50_S16x50x1_0_1 : S16x50.BroadcastsInDim S16x50x1 (![0, 1] : Fin 2 → Fin S16x50x1.rank)
  concatenates_S16x50x1_S16x50x1_S16x50x2_d2 : Shape.Concatenates [S16x50x1, S16x50x1] S16x50x2 2
  reducesTo_S16x50257_S_d0_1 : S16x50257.ReducesTo [0, 1] S_
  scatter_S16x50257_S1_S16_0_1_1_0_wf : ScatterDims.WF S16x50257 S1 S16 [0] [1] [1] 0
  scatter_S16x50257_S16x50x2_S16x50_n_01_01_2_wf : ScatterDims.WF S16x50257 S16x50x2 S16x50 [] [0, 1] [0, 1] 2

variable [Facts₀]

def scatter_S16x50257_S1_S16_0_1_1_0 : ScatterDims S16x50257 S1 S16 where
  updateWindowDims := [0]
  insertedWindowDims := [1]
  scatterDimsToOperandDims := [1]
  indexVectorDim := 0
  wf := scatter_S16x50257_S1_S16_0_1_1_0_wf
def scatter_S16x50257_S16x50x2_S16x50_n_01_01_2 : ScatterDims S16x50257 S16x50x2 S16x50 where
  updateWindowDims := []
  insertedWindowDims := [0, 1]
  scatterDimsToOperandDims := [0, 1]
  indexVectorDim := 2
  wf := scatter_S16x50257_S16x50x2_S16x50_n_01_01_2_wf

class Facts : Prop extends Facts₀ where

variable [Facts]
-- ==== Proof.KernelBody.lean ====
/-
  The kernel body on any two whole staging buffers: it loads the whole input block x (16 x 256 x 512), forms
  the sum over the middle axis times the constant 1/256, and stores that over the whole output block
  (16 x 512); the input buffer is left as it was. Stated once for every float instance.
-/
import proofs.«147636_j7035156431386_1_alg».proof.Proof.Gen.Kernel.Launch
import proofs.«147636_j7035156431386_1_alg».proof.Proof.Gen.Kernel.Skeleton
import proofs.«147636_j7035156431386_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The whole input block and the whole output block as rectangles at offset zero. -/
abbrev rIn : Rect S16x256x512 := Rect.unit (s := S16x256x512) ![0, 0, 0] S16x256x512.size inb_S16x256x512_S16x256x512_0_0_0
abbrev rOut : Rect S16x512 := Rect.unit (s := S16x512) ![0, 0] S16x512.size inb_S16x512_S16x512_0_0

/-- What the output buffer holds after the body, from the input buffer's contents: the one store, of the scaled
    row sums of what the one load read. -/
def outBlock (x0 : Vec F S16x256x512 .f32) : Vec F S16x512 .f32 :=
  View.canon [⟨rOut, k0_pay1 (View.ld x0 rIn)⟩]

/-- The one store covers the output block. -/
theorem cover_out (p0 : Vec F S16x512 .f32) (y : S16x512.Idx) :
    ∃ pc ∈ ([⟨rOut, p0⟩] : List (View.Piece (Elt F) S16x512 .f32)), y ∈ pc.1.set :=
  View.cover_of_tiled [⟨rOut, p0⟩] S16x512.size (by rfl) y

theorem zero3 : (![0, 0, 0] : Fin 3 → Nat) = fun _ => 0 := funext fun a => by fin_cases a <;> rfl
theorem zero2 : (![0, 0] : Fin 2 → Nat) = fun _ => 0 := funext fun a => by fin_cases a <;> rfl

/-- The load and the store are of the whole blocks: the output block ends at the payload of the input block. -/
theorem outBlock_eq (x0 : Vec F S16x256x512 .f32) : outBlock x0 = k0_pay1 x0 := by
  unfold outBlock
  rw [View.canon_unit_zero zero2]
  simp only [View.ld_unit_zero (S := S16x256x512) zero3]

set_option maxHeartbeats 1000000 in
/-- The body's triple: from the input buffer at x0 and the output buffer at anything, it runs to the input buffer at
    x0 and the output buffer at outBlock x0. -/
theorem sound_kernel (c : Dev nD) (E : Set ℕ) (i : grid0.Coords) (arg1 : Memref sig .tc .vmem S16x256x512 .f32) (harg1 : arg1.IsWhole)
    (arg2 : Memref sig .tc .vmem S16x512 .f32) (harg2 : arg2.IsWhole)
    (x0 : Vec F S16x256x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__mean_kernel i arg1 harg1 arg2 harg2) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

end Cert.Kernel.Hand

end
-- ==== Proof.KernelTail.lean ====
/-
  The program around its one kernel launch: nothing runs before the launch, and after it ninety-seven host
  operations in five stretches compute the loss from the launch's result and the keywords. Those operations read
  and write unscoped TensorCore buffers only, allocate nothing, and none of them writes the logits, the keywords
  or the launch's result array: each writes its own result buffer, which is another buffer.
-/
import proofs.«147636_j7035156431386_1_alg».proof.Proof.Gen.Kernel.Launch
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core c's buffer contents when the launch is entered: the launch memory (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The five stretches of host operations after the launch, in order. -/
abbrev tailOps : List (List (HloOp τ sig (Elt F))) := [hostOps1, hostOps1_1, hostOps1_2, hostOps1_3, hostOps1_4]

/-- The program is the launch continued by the five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- Each later operation touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- An operation that writes none of the logits, the keywords and the launch's result. -/
def Keeps (op : HloOp τ sig (Elt F)) : Prop :=
  Proc.devRef .tc main_arg0 ∉ op.writes ∧ Proc.devRef .tc main_arg1 ∉ op.writes ∧ Proc.devRef .tc main_v0 ∉ op.writes

theorem keeps1 : (hostOps1 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_1 : (hostOps1_1 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_2 : (hostOps1_2 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_3 : (hostOps1_3 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_4 : (hostOps1_4 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))

/-- Every later operation keeps the three. -/
theorem sfx_keeps3 : ∀ ops ∈ (tailOps : List (List (HloOp τ sig (Elt F)))), ∀ op ∈ ops, Keeps op := by
  intro ops hops op hop
  simp only [List.mem_cons, List.mem_nil_iff, or_false] at hops
  rcases hops with rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop

/-- In particular none writes an array of the launch (the logits, its input; its result). -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_keeps3 ops hops op hop
  fin_cases w
  · exact h.1
  · exact h.2.2

theorem V_main_arg0 (c : Dev nD) : V m c main_arg0 = m ((c : Thread nD τ).loc main_arg0) := rfl
theorem V_main_arg1 (c : Dev nD) : V m c main_arg1 = m ((c : Thread nD τ).loc main_arg1) := rfl

end Cert.Kernel.Hand

end
-- ==== Proof.KernelFrame.lean ====
/-
  The frame of the program as printed: it runs to the end without a fault and leaves the logits and the keywords as
  they were. Nothing is said here of what the launch's result holds: the last block of the vocabulary axis overhangs
  the arrays (50257 = 98 * 512 + 81), the staging buffers hold words nothing names past the arrays' end, and the row sums
  the body forms from them are not named either. So the proof data only RELATE what the body is handed to what it
  leaves, by the relation that holds of everything; the input array is never written back, and the keywords are read by
  no block and written by no later operation.
-/
import proofs.«147636_j7035156431386_1_alg».proof.Proof.KernelBody
import proofs.«147636_j7035156431386_1_alg».proof.Proof.KernelTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one launch on core c: the arrays as the launch finds them; of what the body
    leaves in a staging buffer nothing is stated; the class invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

/-- The body at any point, on whatever the two current staging buffers hold: it runs, and hands both back. -/
theorem sound_body (c : Dev nD) (t : Fin cfg0.N) (Y0 : S16x256x512.Idx → Elt F .f32) (Y1 : S16x512.Idx → Elt F .f32) :
    iprop((rdat m c).Φ t.castSucc ∗ (rdat m c).owesAt () t.castSucc
        ∗ owns (c : Thread nD τ) (st0_0 t) fullShare Y0 ∗ owns (c : Thread nD τ) (st0_1 t) fullShare Y1)
      ⊢ wp frame (wpE (defs₀ (F := F)) Variants.none c none) Set.univ (bodyAt0 t) (fun _ =>
          iprop((rdat m c).Φ t.succ ∗ (rdat m c).owesAt () t.succ
            ∗ (∃ X, ⌜(rdat m c).after 0 t Y0 X⌝ ∗ owns (c : Thread nD τ) (st0_0 t) fullShare X)
            ∗ (∃ X, ⌜(rdat m c).after 1 t Y1 X⌝ ∗ owns (c : Thread nD τ) (st0_1 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1⟩
  iapply (sound_kernel c Set.univ (grid0.coords t) _ _ _ _ Y0 _)
  isplitl [H0]; · iexact H0
  isplitl [H1]; · iexists _; iexact H1
  iintro ⟨H0, H1⟩
  isplitl [HΦ]; · iexact HΦ
  isplitl [Ho]; · iexact Ho
  isplitl [H0]
  · iexists Y0; isplitr
    · ipureintro; trivial
    · iexact H0
  · iexists outBlock Y0; isplitr
    · ipureintro; trivial
    · iexact H1

/-- The library's relational body obligation, at every point. -/
theorem body_obligation (c : Dev nD) : (rdat (F := F) m c).BodyObligation (defs₀ (F := F)) Variants.none () Set.univ := fun t Y _ => by
  rw [bigSep_W0, bigSep_W0]
  exact sound_body m c t (Y 0) (Y 1)

/-- The buffers the later operations may write: every buffer but the keywords. -/
def written : Finset (Ref sig .tc) := Finset.univ.filter fun b => b ≠ main_arg1

theorem sfx_written : ∀ ops ∈ (tailOps : List (List (HloOp τ sig (Elt F)))), ∀ op ∈ ops,
    ∀ b : Ref sig .tc, Proc.devRef .tc b ∈ op.writes → b ∈ written := by
  intro ops hops op hop b hb
  refine Finset.mem_filter.mpr ⟨Finset.mem_univ _, fun e => ?_⟩
  subst e
  exact (sfx_keeps3 ops hops op hop).2.1 hb

set_option backward.isDefEq.respectTransparency.types false in
/-- Every weakly fair execution of the program terminates; the launch's arrays end at contents the data allow and
    every other unscoped buffer that no later operation may write at what the launch found there. -/
theorem run_main : θ_run defs (onTc (τ := τ) (main (F := F))) (s₀ m ρ)
    (Pipeline.RDat.FramePostR cfg0 (rdat m) written (fun c b => V0 m c (Proc.devRef .tc b))) :=
  Pipeline.RDat.θ_run_frame_around_T cfgs (0 : Fin 1) launch0 defs₀ Variants.none (rdat m) written m ρ main
    (hbody := body_obligation m) (hshare := fun c => (rdat m c).share_full fun _ => rfl)
    (howed := fun _ _ => rfl) (V₀ := V0 m) (opss := tailOps) (hsub := sfx_sub) (hfresh := sfx_fresh) (hkeep := sfx_keeps)
    (hT := sfx_written) (hmain := hmain m Variants.none) (hA := A_eq m) (hΦ := fun _ _ => rfl)

/-- The keywords are an unscoped buffer that is no array of the launch. -/
theorem arg1_rest : main_arg1 ∈ Pipeline.restRefs sig spec0 \ written := by
  refine Finset.mem_sdiff.mpr ⟨Pipeline.mem_restRefs_of main_arg1 rfl (fun w => by fin_cases w <;> decide), fun h => ?_⟩
  exact (Finset.mem_filter.mp h).2 rfl

/-- THE FRAME: the program terminates, faults nowhere, and the logits and the keywords end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by
      have h0 := (h c).1 0
      rw [(rdat m c).ArrAt_in 0 rfl] at h0
      exact h0.trans ((A_eq m c 0).trans (V_main_arg0 m c)),
    ((h c).2 main_arg1 arg1_rest).trans (V_main_arg1 m c)⟩) (run_main m ρ)

end Cert.Kernel.Hand

end
-- ==== Proof.IdealBody.lean ====
/-
  The kernel body on any two whole staging buffers: it loads the whole input block x (16 x 256 x 512), forms
  the sum over the middle axis times the constant 1/256, and stores that over the whole output block
  (16 x 512); the input buffer is left as it was. Stated once for every float instance.
-/
import proofs.«147636_j7035156431386_1_alg».proof.Proof.Gen.KernelIdeal.Launch
import proofs.«147636_j7035156431386_1_alg».proof.Proof.Gen.KernelIdeal.Skeleton
import proofs.«147636_j7035156431386_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The whole input block and the whole output block as rectangles at offset zero. -/
abbrev rIn : Rect S16x256x512 := Rect.unit (s := S16x256x512) ![0, 0, 0] S16x256x512.size inb_S16x256x512_S16x256x512_0_0_0
abbrev rOut : Rect S16x512 := Rect.unit (s := S16x512) ![0, 0] S16x512.size inb_S16x512_S16x512_0_0

/-- What the output buffer holds after the body, from the input buffer's contents: the one store, of the scaled
    row sums of what the one load read. -/
def outBlock (x0 : Vec F S16x256x512 .f32) : Vec F S16x512 .f32 :=
  View.canon [⟨rOut, k0_pay1 (View.ld x0 rIn)⟩]

/-- The one store covers the output block. -/
theorem cover_out (p0 : Vec F S16x512 .f32) (y : S16x512.Idx) :
    ∃ pc ∈ ([⟨rOut, p0⟩] : List (View.Piece (Elt F) S16x512 .f32)), y ∈ pc.1.set :=
  View.cover_of_tiled [⟨rOut, p0⟩] S16x512.size (by rfl) y

theorem zero3 : (![0, 0, 0] : Fin 3 → Nat) = fun _ => 0 := funext fun a => by fin_cases a <;> rfl
theorem zero2 : (![0, 0] : Fin 2 → Nat) = fun _ => 0 := funext fun a => by fin_cases a <;> rfl

/-- The load and the store are of the whole blocks: the output block ends at the payload of the input block. -/
theorem outBlock_eq (x0 : Vec F S16x256x512 .f32) : outBlock x0 = k0_pay1 x0 := by
  unfold outBlock
  rw [View.canon_unit_zero zero2]
  simp only [View.ld_unit_zero (S := S16x256x512) zero3]

set_option maxHeartbeats 1000000 in
/-- The body's triple: from the input buffer at x0 and the output buffer at anything, it runs to the input buffer at
    x0 and the output buffer at outBlock x0. -/
theorem sound_kernel (c : Dev nD) (E : Set ℕ) (i : grid0.Coords) (arg1 : Memref sig .tc .vmem S16x256x512 .f32) (harg1 : arg1.IsWhole)
    (arg2 : Memref sig .tc .vmem S16x512 .f32) (harg2 : arg2.IsWhole)
    (x0 : Vec F S16x256x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__mean_kernel i arg1 harg1 arg2 harg2) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

end Cert.KernelIdeal.Hand

end
-- ==== Proof.IdealTail.lean ====
/-
  The program around its one kernel launch: nothing runs before the launch, and after it ninety-seven host
  operations in five stretches compute the loss from the launch's result and the keywords. Those operations read
  and write unscoped TensorCore buffers only, allocate nothing, and none of them writes the logits, the keywords
  or the launch's result array: each writes its own result buffer, which is another buffer.
-/
import proofs.«147636_j7035156431386_1_alg».proof.Proof.Gen.KernelIdeal.Launch
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core c's buffer contents when the launch is entered: the launch memory (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The five stretches of host operations after the launch, in order. -/
abbrev tailOps : List (List (HloOp τ sig (Elt F))) := [hostOps1, hostOps1_1, hostOps1_2, hostOps1_3, hostOps1_4]

/-- The program is the launch continued by the five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- Each later operation touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- An operation that writes none of the logits, the keywords and the launch's result. -/
def Keeps (op : HloOp τ sig (Elt F)) : Prop :=
  Proc.devRef .tc main_arg0 ∉ op.writes ∧ Proc.devRef .tc main_arg1 ∉ op.writes ∧ Proc.devRef .tc main_v0 ∉ op.writes

theorem keeps1 : (hostOps1 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_1 : (hostOps1_1 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_2 : (hostOps1_2 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_3 : (hostOps1_3 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))
theorem keeps1_4 : (hostOps1_4 : List (HloOp τ sig (Elt F))).Forall Keeps := by
  simp only [List.Forall, Keeps]; repeat' constructor
  all_goals (simp only [StableHlo.nullary_writes, StableHlo.unary_writes, StableHlo.binary_writes, StableHlo.ternary_writes, Finset.mem_singleton]; exact StableHlo.devRef_ne_of_ne (by decide))

/-- Every later operation keeps the three. -/
theorem sfx_keeps3 : ∀ ops ∈ (tailOps : List (List (HloOp τ sig (Elt F)))), ∀ op ∈ ops, Keeps op := by
  intro ops hops op hop
  simp only [List.mem_cons, List.mem_nil_iff, or_false] at hops
  rcases hops with rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop

/-- In particular none writes an array of the launch (the logits, its input; its result). -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_keeps3 ops hops op hop
  fin_cases w
  · exact h.1
  · exact h.2.2

theorem V_main_arg0 (c : Dev nD) : V m c main_arg0 = m ((c : Thread nD τ).loc main_arg0) := rfl
theorem V_main_arg1 (c : Dev nD) : V m c main_arg1 = m ((c : Thread nD τ).loc main_arg1) := rfl

end Cert.KernelIdeal.Hand

end
-- ==== Proof.IdealMean.lean ====
/-
  The mean over the sequence axis as the kernel forms it, on the extended reals: for logits a of shape
  [16, 256, 50257] the entry (b, v) of the result is (sum over s of a[b, s, v]) * 2^-8. The kernel's body forms exactly
  this from one block: its payload at (b, l) is the sum over the block's middle axis at (b, ., l), times the same
  constant; so the payload at a lane depends on the block's entries at that lane only.
-/
import proofs.«147636_j7035156431386_1_alg».proof.Proof.Gen.KernelIdeal.Skeleton
import Idealize.ShloMosaic.PureOps.Ideal.Laws

noncomputable section

namespace Cert.KernelIdeal.Hand

open Cert.KernelIdeal Cert.KernelIdeal.Gen Idealize.ShloMosaic

/-- The constant the body multiplies the row sums by: the f32 word of 1/256. -/
abbrev invN : EReal := Ideal.ofBits .f32 0x3B800000#32

/-- Dropping the middle axis of the logits' shape gives the result's shape. -/
theorem reducesArr : S16x256x50257.Reduces [1] S16x50257 := by decide

/-- The kernel's function of the whole logits array: at (b, v), the sum over the sequence axis times 1/256. -/
def rowMean (a : S16x256x50257.Idx → EReal) : S16x50257.Idx → EReal :=
  fun j => (∑ k : Fin (S16x256x50257.size 1), a (reducesArr.lift j k)) * invN

/-- The body's payload at an entry of the output block: the sum over the input block's middle axis there, times 1/256. -/
theorem pay_apply (x : Vec Ideal S16x256x512 .f32) (j : S16x512.Idx) :
    k0_pay1 (F := Ideal) x j
      = (∑ k : Fin (S16x256x512.size 1), x (reduces_S16x256x512_S16x512.lift j k)) * invN := by
  unfold k0_pay1
  simp only [mulf, broadcast]
  exact congrArg (fun y : EReal => y * Ideal.ofBits .f32 0x3B800000#32)
    (Ideal.multiReduction_add_single x 0x00000000#32 reduces_S16x256x512_S16x512 (.inl rfl) rfl j)

end Cert.KernelIdeal.Hand

end
-- ==== Proof.IdealRun.lean ====
/-
  The idealized kernel program's run, with what it computes. At point t of the 99 the launch fetches columns
  512 t .. of the logits (all 512 of them for t < 98, the last 81 at t = 98, the rest of the staging buffer then holding
  words nothing names), the body writes the scaled sums over the sequence axis into the output block, and the write-back
  copies the same columns of that block into the result. A sum at a lane reads the block at that lane only, so the
  columns written back are those of rowMean of the logits whatever the unnamed words are; the 99 blocks cover the
  50257 columns, so the result array ends at rowMean of the logits. The later host operations then run from that array.
-/
import proofs.«147636_j7035156431386_1_alg».proof.Proof.IdealBody
import proofs.«147636_j7035156431386_1_alg».proof.Proof.IdealTail
import proofs.«147636_j7035156431386_1_alg».proof.Proof.IdealMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule and the blocks' geometry, decided over the grid -/

/-- The result's window is never fetched. -/
theorem fetch0_1 : ∀ t : Fin cfg0.N, (cfg0.win 1).fetch t = false :=
  (by decide +kernel : ∀ t : Fin grid0.N, win0_1.fetch t = false)

/-- Block t of either window starts at column 512 t and at row 0 of the other axes; the two windows are cut
    alike on the column axis — to 81 columns at the last point, not at all before it — and on no other axis. -/
theorem grid_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_0.xsize (grid0.coords t) (0 : Fin 3) = 16 ∧ win0_0.xsize (grid0.coords t) (1 : Fin 3) = 256
    ∧ win0_0.xsize (grid0.coords t) (2 : Fin 3) = win0_1.xsize (grid0.coords t) (1 : Fin 2)
    ∧ win0_1.xsize (grid0.coords t) (0 : Fin 2) = 16
    ∧ win0_1.xsize (grid0.coords t) (1 : Fin 2) = (if t.val = 98 then 81 else 512) :=
  (by decide +kernel : ∀ t : Fin grid0.N, _)

/-! ## The proof data -/

/-- The logits' block at point t as the fetch reads it: its part inside the array. -/
def xblk (c : Dev nD) (t : Fin cfg0.N) : (win0_0.xblock (grid0.coords t)).Idx → Elt Ideal .f32 :=
  (win0_0.blk t).view.read (Elt Ideal) (V m c main_arg0)

/-- That block filled out to the staging buffer's shape with zeros (past the array's end nothing is stated of the
    buffer, and nothing below depends on the filler). -/
def xblk8 (c : Dev nD) (t : Fin cfg0.N) : S16x256x512.Idx → Elt Ideal .f32 :=
  win0_0.fill (grid0.coords t) (fun _ => (0 : EReal)) (xblk m c t)

/-- The proof data of the launch on core c: the arrays as the launch finds them; after the body the input's staging
    buffer at its block and the output's at the body's payload of it; the class invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xblk8 m c t
    | ⟨1, _⟩ => k0_pay1 (F := Ideal) (xblk8 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = xblk8 m c t := by dsimp only [dats]
theorem after0_1 (c : Dev nD) (t : Fin cfg0.N) : (dats m 0 c).after 1 t = k0_pay1 (F := Ideal) (xblk8 m c t) := by dsimp only [dats]

/-- What the body finds: the input's buffer just fetched — the block on the part inside the array, anything elsewhere —, -/
theorem before_0 (c : Dev nD) (t : Fin cfg0.N) (d) :
    (dats m 0 c).before 0 t d = win0_0.fill (grid0.coords t) d (xblk m c t) := by
  unfold Dat.before; rw [if_pos (fetch0_0 t)]; rfl
/-- the output's at contents nothing names (it was written back at the point before). -/
theorem before_1 (c : Dev nD) (t : Fin cfg0.N) (d) : (dats m 0 c).before 1 t d = d := by
  unfold Dat.before
  rw [if_neg (by rw [fetch0_1 t]; exact Bool.false_ne_true)]
  split
  · rfl
  · dsimp only; rw [if_pos (flush0_1 _)]

/-! ## The columns written back -/

/-- A filled block at an index inside the part the fetch moves is the block there, whatever the filler. -/
theorem fill_of_lt (t : Fin cfg0.N) (d : S16x256x512.Idx → EReal) (g : (win0_0.xblock (grid0.coords t)).Idx → EReal)
    (z : S16x256x512.Idx) (h : ∀ a, (z a).val < win0_0.xsize (grid0.coords t) a) :
    win0_0.fill (grid0.coords t) d g z = g fun a => ⟨(z a).val, h a⟩ := by
  unfold Window.fill; rw [dif_pos ((win0_0.moved_iff (grid0.coords t) z).mpr h)]

/-- THE COLUMNS THE WRITE-BACK MOVES, of the payload of the fetched block filled out with anything, are those columns
    of rowMean of the logits: entry (b, l) of the payload sums the block at (b, ., l), which lies inside the array
    when l does, and is the logits at (b, ., 512 t + l). -/
theorem cut_pay_fill (c : Dev nD) (t : Fin cfg0.N) (d : S16x256x512.Idx → EReal) :
    win0_1.cut (grid0.coords t) (k0_pay1 (F := Ideal) (win0_0.fill (grid0.coords t) d (xblk m c t)))
      = ((cfg0.win 1).blk t).view.read (Elt Ideal) (rowMean (V m c main_arg0)) := by
  funext jx
  show k0_pay1 (F := Ideal) (win0_0.fill (grid0.coords t) d (xblk m c t)) (win0_1.xinj (grid0.coords t) jx)
    = rowMean (V m c main_arg0) (((cfg0.win 1).blk t).view.emb jx)
  rw [pay_apply]; unfold rowMean
  refine congrArg (fun y : EReal => y * invN) (Finset.sum_congr rfl fun k _ => ?_)
  obtain ⟨e0, e1, e2, e3, e4, s0, s1, s2, s3, s4⟩ := grid_facts t
  have hj0 : (jx 0).val < win0_1.xsize (grid0.coords t) (0 : Fin 2) := (jx 0).isLt
  have hj1 : (jx 1).val < win0_1.xsize (grid0.coords t) (1 : Fin 2) := (jx 1).isLt
  have hk : k.val < 256 := k.isLt
  have hmv : ∀ a, ((reduces_S16x256x512_S16x512.lift (win0_1.xinj (grid0.coords t) jx) k) a).val < win0_0.xsize (grid0.coords t) a := by
    intro a
    match a with
    | ⟨0, _⟩ => show (jx 0).val < win0_0.xsize (grid0.coords t) (0 : Fin 3); omega
    | ⟨1, _⟩ => show k.val < win0_0.xsize (grid0.coords t) (1 : Fin 3); omega
    | ⟨2, _⟩ => show (jx 1).val < win0_0.xsize (grid0.coords t) (2 : Fin 3); omega
  rw [fill_of_lt t d _ _ hmv]
  unfold xblk; rw [View.read_apply]
  refine congrArg (V m c main_arg0) ?_
  funext a; apply Fin.ext
  match a with
  | ⟨0, _⟩ => show win0_0.index t (0 : Fin 3) * 16 + 1 * (jx 0).val = win0_1.index t (0 : Fin 2) * 16 + 1 * (jx 0).val; omega
  | ⟨1, _⟩ => show win0_0.index t (1 : Fin 3) * 256 + 1 * k.val = k.val; omega
  | ⟨2, _⟩ => show win0_0.index t (2 : Fin 3) * 512 + 1 * (jx 1).val = win0_1.index t (1 : Fin 2) * 512 + 1 * (jx 1).val; omega

/-! ## The body obligation -/

/-- The body at any point (each staging buffer stated on the part its transfers move): the input's buffer is left as
    fetched; the output's ends at the payload of it, whose moved columns do not depend on the words past the array's end. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (st0_0 t) fullShare (win0_0.fill (grid0.coords t) d (win0_0.cut (grid0.coords t) ((dats m 0 c).after 0 t))))
            ∗ (∃ d, owns (c : Thread nD τ) (st0_1 t) fullShare (win0_1.fill (grid0.coords t) d (win0_1.cut (grid0.coords t) ((dats m 0 c).after 1 t)))))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0, before_1 m c t d1]
  iapply (sound_kernel (F := Ideal) c Set.univ (grid0.coords t) _ _ _ _ (win0_0.fill (grid0.coords t) d0 (xblk m c t)) _)
  isplitl [H0]; · iexact H0
  isplitl [H1]; · iexists _; iexact H1
  iintro ⟨H0, H1⟩
  isplitl [HΦ]; · iexact HΦ
  isplitl [Ho]; · iexact Ho
  have hx : win0_0.cut (grid0.coords t) (xblk8 m c t) = xblk m c t := win0_0.cut_fill _ _ _
  have hs : win0_1.fill (grid0.coords t) (outBlock (win0_0.fill (grid0.coords t) d0 (xblk m c t)))
        (win0_1.cut (grid0.coords t) (k0_pay1 (F := Ideal) (xblk8 m c t)))
      = outBlock (win0_0.fill (grid0.coords t) d0 (xblk m c t)) :=
    win0_1.fill_congr_cut _ (by rw [outBlock_eq, cut_pay_fill]; unfold xblk8; rw [cut_pay_fill])
  isplitl [H0]
  · iexists d0
    rw [after0_0, hx]; iexact H0
  · iexists outBlock (win0_0.fill (grid0.coords t) d0 (xblk m c t))
    rw [after0_1, hs]; iexact H1

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The result array after the launch -/

/-- WHAT POINT t WRITES BACK is block t of rowMean of the logits as the launch finds them. -/
theorem flushed_eq (c : Dev nD) (t : Fin cfg0.N) :
    (dats m 0 c).flushed 1 t = ((cfg0.win 1).blk t).view.read (Elt Ideal) (rowMean (V m c main_arg0)) := by
  show (cfg0.win 1).cut (grid0.coords t) ((dats m 0 c).after 1 t) = _
  rw [after0_1]; unfold xblk8
  exact cut_pay_fill m c t _

/-- An index of the result is in point t's block iff each coordinate is in the block's cut range on its axis. -/
theorem mem_blk (t : Fin cfg0.N) (i : S16x50257.Idx) :
    i ∈ ((cfg0.win 1).blk t).view.set ↔ ∀ a : Fin 2, win0_1.index t a * S16x512.size a ≤ (i a).val
      ∧ (i a).val < win0_1.index t a * S16x512.size a + win0_1.xsize (grid0.coords t) a := by
  show i ∈ ((View.whole main_v0).slice (win0_1.rect t)).set ↔ _
  rw [View.set_slice_whole, Rect.mem_set_unit]
  exact Iff.rfl

/-- Every index of the result lies in the block of the point its column falls in: 98 blocks of 512 columns and a last
    one of 81 make up the 50257. -/
theorem covered (i : S16x50257.Idx) :
    ∃ t : Fin cfg0.N, (cfg0.win 1).flush t = true ∧ i ∈ ((cfg0.win 1).blk t).view.set := by
  have h0 : (i 0).val < 16 := (i 0).isLt
  have h1 : (i 1).val < 50257 := (i 1).isLt
  have hN : cfg0.N = 99 := N_0
  refine ⟨⟨(i 1).val / 512, by omega⟩, flush0_1 _, ?_⟩
  rw [mem_blk]
  obtain ⟨e0, e1, e2, e3, e4, s0, s1, s2, s3, s4⟩ := grid_facts ⟨(i 1).val / 512, by omega⟩
  intro a
  match a with
  | ⟨0, _⟩ =>
    show win0_1.index _ (0 : Fin 2) * 16 ≤ (i 0).val ∧ (i 0).val < win0_1.index _ (0 : Fin 2) * 16 + win0_1.xsize _ (0 : Fin 2)
    omega
  | ⟨1, _⟩ =>
    show win0_1.index _ (1 : Fin 2) * 512 ≤ (i 1).val ∧ (i 1).val < win0_1.index _ (1 : Fin 2) * 512 + win0_1.xsize _ (1 : Fin 2)
    rw [e4, s4]; dsimp only
    split <;> omega

/-- THE RESULT ARRAY after the launch: rowMean of the logits. -/
theorem final (c : Dev nD) : (dats m 0 c).arrAt 1 cfg0.N = rowMean (m ((c : Thread nD τ).loc main_arg0)) :=
  (dats m 0 c).arrAt_eq_of_cover 1 _ (fun t _ => flushed_eq m c t) covered

/-! ## The run -/

set_option backward.isDefEq.respectTransparency.types false in
/-- Every weakly fair execution terminates; the launch's arrays end at what the proof data compute and every other
    unscoped buffer as the later host operations leave it. -/
theorem run_main : θ_run defs (onTc (τ := τ) (main (F := Ideal))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- What the later operations run from: the launch's arrays at their final contents, every other buffer as launched. -/
abbrev exitVal (c : Dev nD) : Valuation τ sig (Elt Ideal) :=
  Pipeline.withArrays spec0 c (V0 m c) fun w => (dats m 0 c).arrAt w cfg0.N

theorem exit_v0 (c : Dev nD) : exitVal m c (Proc.devRef .tc main_v0) = rowMean (m ((c : Thread nD τ).loc main_arg0)) :=
  (Pipeline.withArrays_arr spec0 launch0.win.arr_inj c _ _ 1).trans (final m c)

theorem exit_arg0 (c : Dev nD) : exitVal m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))

theorem exit_arg1 (c : Dev nD) : exitVal m c (Proc.devRef .tc main_arg1) = m ((c : Thread nD τ).loc main_arg1) :=
  Pipeline.withArrays_of_ne spec0 c _ _ main_arg1 (fun w => by fin_cases w <;> decide)

/-- The frame run re-posted: every unscoped buffer that is no array of the launch ends at the fold of the later
    operations over the exit contents; the logits end unchanged. -/
theorem run_tail : θ_run defs (onTc (τ := τ) (main (F := Ideal))) ⟨m, fun _ => 0, ρ⟩ fun r => ∀ c : Dev nD,
      (∀ b ∈ Pipeline.restRefs sig spec0, r.2.mem ((c.tc : Thread nD τ).loc b)
          = StableHlo.after (List.flatten (tailOps (F := Ideal))) (exitVal m c) (Proc.devRef .tc b))
      ∧ r.2.mem ((c.tc : Thread nD τ).loc main_arg0) = m ((c.tc : Thread nD τ).loc main_arg0) :=
  (θ_run defs _ _).mono (fun r h c => ⟨fun b hb => (h c).2 b hb,
      ((h c).1 0).trans (((dats m 0 c).arrAt_in 0 rfl _).trans ((A_eq m c 0).trans (V_main_arg0 m c)))⟩) (run_main m ρ)

end Cert.KernelIdeal.Hand

end
-- ==== Proof.TailFn.lean ====
/- The host computation that both programs apply to the per-example mean of the logits, as ONE function
   (loss), built from small named stages, and the reference program's own computation of that mean
   (meanRef). All at the ideal instance: a float is an extended real and every operation its textbook one.

   With x : 16 × 50257 the mean logits and kw : 16 × 50 the keyword token ids,
     loss x kw = (1/16) · Σ_{r,j} p_{r j} · (log p_{r j} − q_{r j}),
   where q is the row-wise log-softmax of x with column 0 zeroed, and p is the row-wise softmax of the
   keyword matrix (0.9 at every (row, keyword) position, 0 elsewhere; special keyword ids first replaced by 0) with column 0 zeroed: the
   Kullback–Leibler sum of the keyword distribution against the model's, divided by the batch size. -/
import proofs.«147636_j7035156431386_1_alg».proof.Proof.Gen.KernelIdeal
import Idealize.ShloMosaic.PureOps.Ideal

noncomputable section

namespace Cert.Tail

open Idealize.ShloMosaic Cert.KernelIdeal Cert.KernelIdeal.Gen

/-- The contents of a buffer of shape S and element type e, at the ideal instance. -/
local notation:max "𝔸[" S ", " e "]" => BufTy.Contents (Elt Ideal) (BufTy.mk S e)

/-- A transport along an equation and back is the identity. -/
theorem cast_cast_cancel {α β : Sort _} (h : α = β) (h' : β = α) (a : β) : cast h (cast h' a) = a := by
  subst h; rfl

/-! ## Zeroing column 0 -/

/-- Column 0 of every row replaced by zero: the scatter, at column index 0, of a zero for each of the 16 rows. -/
def zeroCol0 (x : 𝔸[S16x50257, .f32]) : 𝔸[S16x50257, .f32] :=
  Host.scatter scatter_S16x50257_S1_S16_0_1_1_0 (fun _ b => b) x
    (broadcastInDim S1 ![] bcast_S_S1 (constantI S_ 32 0#32))
    (broadcastInDim S16 ![] bcast_S_S16 (constant (F := Ideal) S_ .f32 0x00000000#32))

/-! ## Row-wise softmax and log-softmax -/

/-- Each row minus its own maximum (the maximum taken from −∞, then once more against −∞). -/
def shifted (y : 𝔸[S16x50257, .f32]) : 𝔸[S16x50257, .f32] :=
  subf (F := Ideal) (φ := .f32) y
    (broadcastInDim S16x50257 ![0, 1] bcast_S16x1_S16x50257_0_1
      (broadcastInDim S16x1 ![0] bcast_S16_S16x1_0
        (maximumf (F := Ideal) (φ := .f32) (broadcastInDim S16 ![] bcast_S_S16 (constant (F := Ideal) S_ .f32 0xFF800000#32))
          (Host.reduce (FloatOps.maximumf (F := Ideal) (φ := .f32)) y (constant (F := Ideal) S_ .f32 0xFF800000#32) reducesTo_S16x50257_S16_d1 h_S_))))

/-- Each row's sum of the exponentials of its shifted entries, as a 16 × 1 column. -/
def expSum (y : 𝔸[S16x50257, .f32]) : 𝔸[S16x1, .f32] :=
  broadcastInDim S16x1 ![0] bcast_S16_S16x1_0
    (Host.reduceAdd (F := Ideal) (φ := .f32) (Host.exp (F := Ideal) (φ := .f32) (shifted y)) (constant (F := Ideal) S_ .f32 0x00000000#32) reducesTo_S16x50257_S16_d1 h_S_)

/-- Row-wise log-softmax: the shifted entry minus the logarithm of the row's sum of exponentials. -/
def logSoftmax (y : 𝔸[S16x50257, .f32]) : 𝔸[S16x50257, .f32] :=
  subf (F := Ideal) (φ := .f32) (shifted y)
    (broadcastInDim S16x50257 ![0, 1] bcast_S16x1_S16x50257_0_1 (Host.log (F := Ideal) (φ := .f32) (expSum y)))

/-- Row-wise softmax: the exponential of the shifted entry divided by the row's sum of exponentials. -/
def softmax (t : 𝔸[S16x50257, .f32]) : 𝔸[S16x50257, .f32] :=
  Host.divf (F := Ideal) (φ := .f32) (Host.exp (F := Ideal) (φ := .f32) (shifted t))
    (broadcastInDim S16x50257 ![0, 1] bcast_S16x1_S16x50257_0_1 (expSum t))

/-! ## The keyword matrix -/

/-- Where a keyword id is one of the special ids 101, 102, 117, 120 or 0. -/
def isSpecial (kw : 𝔸[S16x50, .i32]) : 𝔸[S16x50, .i1] :=
  ori (ori (ori (ori (ori (broadcastInDim S16x50 ![] bcast_S_S16x50 (constantI S_ 1 0#1))
    (cmpi .eq kw (broadcastInDim S16x50 ![] bcast_S_S16x50 (constantI S_ 32 101#32))))
    (cmpi .eq kw (broadcastInDim S16x50 ![] bcast_S_S16x50 (constantI S_ 32 102#32))))
    (cmpi .eq kw (broadcastInDim S16x50 ![] bcast_S_S16x50 (constantI S_ 32 117#32))))
    (cmpi .eq kw (broadcastInDim S16x50 ![] bcast_S_S16x50 (constantI S_ 32 120#32))))
    (cmpi .eq kw (broadcastInDim S16x50 ![] bcast_S_S16x50 (constantI S_ 32 0#32)))

/-- The keyword ids with every special id replaced by 0. -/
def cleanKw (kw : 𝔸[S16x50, .i32]) : 𝔸[S16x50, .i32] :=
  select (isSpecial kw) (broadcastInDim S16x50 ![] bcast_S_S16x50 (id (constantI S_ 32 0#32))) kw

/-- The row numbers 0 … 15 as a 16 × 1 column. -/
def rowIota : 𝔸[S16x1, .i32] :=
  broadcastInDim S16x1 ![0] bcast_S16_S16x1_0 (iotaInDim S16 32 0)

/-- The row index of each scatter position: the row number, a negative one counted from the end. -/
def rowIdx : 𝔸[S16x1, .i32] :=
  select (cmpi .slt rowIota (broadcastInDim S16x1 ![] bcast_S_S16x1 (constantI S_ 32 0#32)))
    (addi rowIota (broadcastInDim S16x1 ![] bcast_S_S16x1 (constantI S_ 32 16#32))) rowIota

/-- The column index of each scatter position, from the cleaned keyword ids k: the id, a negative one counted from the end. -/
def colIdx (k : 𝔸[S16x50, .i32]) : 𝔸[S16x50, .i32] :=
  select (cmpi .slt k (broadcastInDim S16x50 ![] bcast_S_S16x50 (constantI S_ 32 0#32)))
    (addi k (broadcastInDim S16x50 ![] bcast_S_S16x50 (constantI S_ 32 50257#32))) k

/-- The (row, column) pair of each of the 16 × 50 scatter positions. -/
def kwIndices (k : 𝔸[S16x50, .i32]) : 𝔸[S16x50x2, .i32] :=
  concatenate S16x50x2 2
    [⟨S16x50x1, (broadcastInDim S16x50x1 ![0, 1] bcast_S16x50_S16x50x1_0_1 (broadcastInDim S16x50 ![0, 1] bcast_S16x1_S16x50_0_1 rowIdx))⟩,
     ⟨S16x50x1, (broadcastInDim S16x50x1 ![0, 1] bcast_S16x50_S16x50x1_0_1 (colIdx k))⟩]
    concatenates_S16x50x1_S16x50x1_S16x50x2_d2

/-- The keyword matrix of the cleaned keyword ids k: 0.9 written at every (row, keyword) position of a
    16 × 50257 matrix of zeros. -/
def kwMatrix (k : 𝔸[S16x50, .i32]) : 𝔸[S16x50257, .f32] :=
  Host.scatter scatter_S16x50257_S16x50x2_S16x50_n_01_01_2 (fun _ b => b)
    (broadcastInDim S16x50257 ![] bcast_S_S16x50257 (constant (F := Ideal) S_ .f32 0x00000000#32))
    (kwIndices k)
    (broadcastInDim S16x50 ![] bcast_S_S16x50 (constant (F := Ideal) S_ .f32 0x3F666666#32))

/-! ## The loss -/

/-- The Kullback–Leibler sum Σ p · (log p − q) over all rows and columns, divided by the batch size 16. -/
def klMean (p q : 𝔸[S16x50257, .f32]) : 𝔸[S_, .f32] :=
  Host.divf (F := Ideal) (φ := .f32)
    (Host.reduceAdd (F := Ideal) (φ := .f32) (mulf (F := Ideal) (φ := .f32) p (subf (F := Ideal) (φ := .f32) (Host.log (F := Ideal) (φ := .f32) p) q))
      (constant (F := Ideal) S_ .f32 0x00000000#32) reducesTo_S16x50257_S_d0_1 h_S_)
    (constant (F := Ideal) S_ .f32 0x41800000#32)

/-- The whole host computation after the mean: the keyword distribution (softmax of the keyword matrix with
    column 0 zeroed) against the model's log-probabilities (log-softmax of the mean logits with column 0 zeroed). -/
def loss (x : (⟨S16x50257, .f32⟩ : BufTy).Contents (Elt Ideal)) (kw : (⟨S16x50, .i32⟩ : BufTy).Contents (Elt Ideal)) :
    (⟨S_, .f32⟩ : BufTy).Contents (Elt Ideal) :=
  klMean (softmax (zeroCol0 (kwMatrix (cleanKw kw)))) (logSoftmax (zeroCol0 x))

/-! ## The reference's mean -/

/-- The mean over the 256 positions of axis 1: their sum from zero, divided by 256. -/
def meanRef (a : (⟨S16x256x50257, .f32⟩ : BufTy).Contents (Elt Ideal)) : (⟨S16x50257, .f32⟩ : BufTy).Contents (Elt Ideal) :=
  Host.divf (F := Ideal) (φ := .f32)
    (Host.reduceAdd (F := Ideal) (φ := .f32) a (constant (F := Ideal) S_ .f32 0x00000000#32)
      (by decide : S16x256x50257.ReducesTo [1] S16x50257) h_S_)
    (broadcastInDim S16x50257 ![] bcast_S_S16x50257 (constant (F := Ideal) S_ .f32 0x43800000#32))

end Cert.Tail

end
-- ==== Proof.TailKernel.lean ====
/- The kernel program's host operations after its pallas_call compute loss of the call's result and the
   keyword ids: read stretch by stretch (each stretch's results in terms of the values before it), then composed. -/
import proofs.«147636_j7035156431386_1_alg».proof.Proof.TailFn
import proofs.«147636_j7035156431386_1_alg».proof.Proof.Gen.KernelIdeal.Launch
import Idealize.ShloMosaic.Lib.StableHlo.Run
import Idealize.ShloMosaic.Lib.Pipeline.Frame

noncomputable section

namespace Cert.Tail

open Idealize.ShloMosaic Cert.KernelIdeal Cert.KernelIdeal.Gen

variable (V : Valuation τ sig (Elt Ideal))

/-! ## Stretch 1: zeroing column 0 of the mean logits -/

theorem s1_v3 : StableHlo.after (Gen.hostOps1 (F := Ideal)) V (Proc.devRef .tc main_v3)
    = zeroCol0 (V (Proc.devRef .tc main_v0)) := by
  after_results_simp <;> rfl

theorem s1_arg1 : StableHlo.after (Gen.hostOps1 (F := Ideal)) V (Proc.devRef .tc main_arg1)
    = V (Proc.devRef .tc main_arg1) := by
  after_results_simp <;> rfl

/-! ## Stretch 2: the row-wise log-softmax -/

set_option maxRecDepth 8192 in
theorem s2_v4 : StableHlo.after (Gen.hostOps1_1 (F := Ideal)) V (Proc.devRef .tc main_v4)
    = logSoftmax (V (Proc.devRef .tc main_v3)) := by
  after_results_simp
  simp only [cast_cast_cancel]
  rfl

theorem s2_arg1 : StableHlo.after (Gen.hostOps1_1 (F := Ideal)) V (Proc.devRef .tc main_arg1)
    = V (Proc.devRef .tc main_arg1) := by
  after_results_simp <;> rfl

/-! ## Stretch 3: which keyword ids are special -/

theorem s3_v20 : StableHlo.after (Gen.hostOps1_2 (F := Ideal)) V (Proc.devRef .tc main_v20)
    = isSpecial (V (Proc.devRef .tc main_arg1)) := by
  after_results_simp <;> rfl

theorem s3_c6 : StableHlo.after (Gen.hostOps1_2 (F := Ideal)) V (Proc.devRef .tc main_c_6)
    = constantI S_ 32 0#32 := by
  after_results_simp <;> rfl

theorem s3_arg1 : StableHlo.after (Gen.hostOps1_2 (F := Ideal)) V (Proc.devRef .tc main_arg1)
    = V (Proc.devRef .tc main_arg1) := by
  after_results_simp <;> rfl

theorem s3_v4 : StableHlo.after (Gen.hostOps1_2 (F := Ideal)) V (Proc.devRef .tc main_v4)
    = V (Proc.devRef .tc main_v4) := by
  after_results_simp <;> rfl

/-! ## Stretch 4: the special ids replaced by 0 -/

theorem s4_v21 : StableHlo.after (Gen.hostOps1_3 (F := Ideal)) V (Proc.devRef .tc main_v21)
    = select (V (Proc.devRef .tc main_v20))
        (broadcastInDim S16x50 ![] bcast_S_S16x50 (id (V (Proc.devRef .tc main_c_6))))
        (V (Proc.devRef .tc main_arg1)) := by
  after_results_simp <;> rfl

theorem s4_v4 : StableHlo.after (Gen.hostOps1_3 (F := Ideal)) V (Proc.devRef .tc main_v4)
    = V (Proc.devRef .tc main_v4) := by
  after_results_simp <;> rfl

/-! ## Stretch 5: the keyword matrix, its softmax, and the Kullback–Leibler sum -/

set_option maxRecDepth 8192 in
set_option maxHeartbeats 4000000 in
theorem s5_v59 : StableHlo.after (Gen.hostOps1_4 (F := Ideal)) V (Proc.devRef .tc main_v59)
    = klMean (softmax (zeroCol0 (kwMatrix (V (Proc.devRef .tc main_v21))))) (V (Proc.devRef .tc main_v4)) := by
  after_results_simp <;> rfl

/-! ## The five stretches composed -/

theorem kernel_tail (W : Valuation τ sig (Elt Ideal)) :
    StableHlo.after (List.flatten [Gen.hostOps1 (F := Ideal), Gen.hostOps1_1, Gen.hostOps1_2, Gen.hostOps1_3, Gen.hostOps1_4]) W (Proc.devRef .tc main_v59)
      = loss (W (Proc.devRef .tc main_v0)) (W (Proc.devRef .tc main_arg1)) := by
  rw [List.flatten_cons, List.flatten_cons, List.flatten_cons, List.flatten_cons, List.flatten_cons, List.flatten_nil, List.append_nil,
    StableHlo.after_append, StableHlo.after_append, StableHlo.after_append, StableHlo.after_append,
    s5_v59, s4_v21, s4_v4, s3_v20, s3_c6, s3_arg1, s3_v4, s2_v4, s2_arg1, s1_v3, s1_arg1]
  rfl

end Cert.Tail

end
-- ==== Proof.IdealValue.lean ====
/-
  The idealized kernel program's result: the host operations after the launch apply the function loss to the
  launch's result array — rowMean of the logits — and the keywords, which nothing writes; the logits and the keywords
  end unchanged.
-/
import proofs.«147636_j7035156431386_1_alg».proof.Proof.IdealRun
import proofs.«147636_j7035156431386_1_alg».proof.Proof.TailKernel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The loss buffer and the keywords are unscoped buffers that are no array of the launch. -/
theorem v59_rest : main_v59 ∈ Pipeline.restRefs sig spec0 :=
  Pipeline.mem_restRefs_of main_v59 rfl (fun w => by fin_cases w <;> decide)
theorem arg1_rest : main_arg1 ∈ Pipeline.restRefs sig spec0 :=
  Pipeline.mem_restRefs_of main_arg1 rfl (fun w => by fin_cases w <;> decide)

/-- No later operation writes the keywords. -/
theorem tail_keeps_arg1 (W : Valuation τ sig (Elt Ideal)) :
    StableHlo.after (List.flatten (tailOps (F := Ideal))) W (Proc.devRef .tc main_arg1) = W (Proc.devRef .tc main_arg1) :=
  StableHlo.after_of_forall_not_mem _ W fun op hop => by
    obtain ⟨l, hl, hop⟩ := List.mem_flatten.mp hop
    exact (sfx_keeps3 l hl op hop).2.1

/-- THE VALUE RUN: every weakly fair execution terminates, the result buffer ends at loss of rowMean of the logits and the
    keywords, and both arguments end unchanged. -/
theorem run_value : θ_run defs (onTc (τ := τ) (main (F := Ideal))) ⟨m, fun _ => 0, ρ⟩ fun r => ∀ c : Dev nD,
      r.2.mem ((c.tc : Thread nD τ).loc main_v59)
        = Cert.Tail.loss (rowMean (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).1 main_v59 v59_rest).trans ((Cert.Tail.kernel_tail (exitVal m c)).trans (by rw [exit_v0, exit_arg1])),
      (h c).2,
      ((h c).1 main_arg1 arg1_rest).trans ((tail_keeps_arg1 (exitVal m c)).trans (exit_arg1 m c))⟩) (run_tail m ρ)

end Cert.KernelIdeal.Hand

end
-- ==== Proof.TailReference.lean ====
/-
  The reference program's operations, read stretch by stretch: the mean over the sequence axis; zeroing column 0; the
  row-wise log-softmax; which keyword ids are special; those ids replaced by 0; the keyword matrix, its softmax and the
  Kullback–Leibler sum. Each stretch's result is a named stage of loss applied to the values before the stretch, and the
  stretches composed give loss of the reference's mean and the keywords.
-/
import proofs.«147636_j7035156431386_1_alg».proof.Proof.TailFn
import proofs.«147636_j7035156431386_1_alg».proof.Proof.RefRun
import Idealize.ShloMosaic.Lib.StableHlo.Run
import Idealize.ShloMosaic.Lib.Pipeline.Frame

noncomputable section

namespace Cert.TailRef

open Cert.ReferenceIdeal Cert.ReferenceIdeal.Gen Idealize.ShloMosaic Idealize.ShloMosaic.TcCoe Idealize.SL.Sem Idealize.ShloMosaic.StableHlo
open Cert.Tail (loss meanRef zeroCol0 logSoftmax softmax isSpecial kwMatrix klMean)

section
variable {F : FTy → Type} [FloatOps F]

/-- The reference's 102 operations cut into six stretches. -/
abbrev opsMean : List (HloOp τ sig (Elt F)) :=
  [ nullary main_cst (constant S_ .f32 0x00000000#32),
    binary main_arg0 main_cst main_v0 ((fun x v => Host.reduceAdd x v reducesTo_S16x256x50257_S16x50257_d1 h_S_) : (⟨S16x256x50257, .f32⟩ : BufTy).Contents (Elt F) → (⟨S_, .f32⟩ : BufTy).Contents (Elt F) → (⟨S16x50257, .f32⟩ : BufTy).Contents (Elt F)),
    nullary main_cst_0 (constant S_ .f32 0x43800000#32),
    unary main_cst_0 main_v1 (broadcastInDim S16x50257 ![] bcast_S_S16x50257 : (⟨S_, .f32⟩ : BufTy).Contents (Elt F) → (⟨S16x50257, .f32⟩ : BufTy).Contents (Elt F)),
    binary main_v0 main_v1 main_v2 (Host.divf : (⟨S16x50257, .f32⟩ : BufTy).Contents (Elt F) → (⟨S16x50257, .f32⟩ : BufTy).Contents (Elt F) → (⟨S16x50257, .f32⟩ : BufTy).Contents (Elt F)) ]

abbrev opsZero : List (HloOp τ sig (Elt F)) :=
  [ nullary main_c (constantI S_ 32 0#32),
    unary main_c main_v3 (broadcastInDim S1 ![] bcast_S_S1 : (⟨S_, .i32⟩ : BufTy).Contents (Elt F) → (⟨S1, .i32⟩ : BufTy).Contents (Elt F)),
    nullary main_cst_1 (constant S_ .f32 0x00000000#32),
    unary main_cst_1 main_v4 (broadcastInDim S16 ![] bcast_S_S16 : (⟨S_, .f32⟩ : BufTy).Contents (Elt F) → (⟨S16, .f32⟩ : BufTy).Contents (Elt F)),
    ternary main_v2 main_v3 main_v4 main_v5 ((fun x i u => Host.scatter scatter_S16x50257_S1_S16_0_1_1_0 (fun _ b => b) x i u) : (⟨S16x50257, .f32⟩ : BufTy).Contents (Elt F) → (⟨S1, .i32⟩ : BufTy).Contents (Elt F) → (⟨S16, .f32⟩ : BufTy).Contents (Elt F) → (⟨S16x50257, .f32⟩ : BufTy).Contents (Elt F)) ]

abbrev opsLogSoftmax : List (HloOp τ sig (Elt F)) :=
  [ TRef.nullary (TRef.of (T := ⟨S_, .f32⟩) main_call0_cst) (constant S_ .f32 0xFF800000#32),
    TRef.binary (TRef.of (T := ⟨S16x50257, .f32⟩) main_v5) (TRef.of (T := ⟨S_, .f32⟩) main_call0_cst) (TRef.of (T := ⟨S16, .f32⟩) main_call0_v0) (fun x v => Host.reduce FloatOps.maximumf x v reducesTo_S16x50257_S16_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16, .f32⟩) main_call0_v1) (broadcastInDim S16 ![] bcast_S_S16),
    TRef.binary (TRef.of (T := ⟨S16, .f32⟩) main_call0_v1) (TRef.of (T := ⟨S16, .f32⟩) main_call0_v0) (TRef.of (T := ⟨S16, .f32⟩) main_call0_v2) maximumf,
    TRef.unary (TRef.of (T := ⟨S16, .f32⟩) main_call0_v2) (TRef.of (T := ⟨S16x1, .f32⟩) main_call0_v3) (broadcastInDim S16x1 ![0] bcast_S16_S16x1_0),
    TRef.unary (TRef.of (T := ⟨S16x1, .f32⟩) main_call0_v3) (TRef.of (T := ⟨S16x50257, .f32⟩) main_call0_v4) (broadcastInDim S16x50257 ![0, 1] bcast_S16x1_S16x50257_0_1),
    TRef.binary (TRef.of (T := ⟨S16x50257, .f32⟩) main_v5) (TRef.of (T := ⟨S16x50257, .f32⟩) main_call0_v4) (TRef.of (T := ⟨S16x50257, .f32⟩) main_call0_v5) subf,
    TRef.unary (TRef.of (T := ⟨S16x50257, .f32⟩) main_call0_v5) (TRef.of (T := ⟨S16x50257, .f32⟩) main_call0_v6) Host.exp,
    TRef.nullary (TRef.of (T := ⟨S_, .f32⟩) main_call0_cst_1) (constant S_ .f32 0x00000000#32),
    TRef.binary (TRef.of (T := ⟨S16x50257, .f32⟩) main_call0_v6) (TRef.of (T := ⟨S_, .f32⟩) main_call0_cst_1) (TRef.of (T := ⟨S16, .f32⟩) main_call0_v7) (fun x v => Host.reduceAdd x v reducesTo_S16x50257_S16_d1 h_S_),
    TRef.unary (TRef.of (T := ⟨S16, .f32⟩) main_call0_v7) (TRef.of (T := ⟨S16x1, .f32⟩) main_call0_v8) (broadcastInDim S16x1 ![0] bcast_S16_S16x1_0),
    TRef.unary (TRef.of (T := ⟨S16x1, .f32⟩) main_call0_v8) (TRef.of (T := ⟨S16x1, .f32⟩) main_call0_v9) Host.log,
    TRef.unary (TRef.of (T := ⟨S16x1, .f32⟩) main_call0_v9) (TRef.of (T := ⟨S16x50257, .f32⟩) main_call0_v10) (broadcastInDim S16x50257 ![0, 1] bcast_S16x1_S16x50257_0_1),
    TRef.binary (TRef.of (T := ⟨S16x50257, .f32⟩) main_call0_v5) (TRef.of (T := ⟨S16x50257, .f32⟩) main_call0_v10) (TRef.of (T := ⟨S16x50257, .f32⟩) main_v6) subf ]

abbrev opsSpecial : List (HloOp τ sig (Elt F)) :=
  [ nullary main_c_2 (constantI S_ 1 0#1),
    unary main_c_2 main_v7 (broadcastInDim S16x50 ![] bcast_S_S16x50 : (⟨S_, .i1⟩ : BufTy).Contents (Elt F) → (⟨S16x50, .i1⟩ : BufTy).Contents (Elt F)),
    nullary main_c_3 (constantI S_ 32 101#32),
    unary main_c_3 main_v8 (broadcastInDim S16x50 ![] bcast_S_S16x50 : (⟨S_, .i32⟩ : BufTy).Contents (Elt F) → (⟨S16x50, .i32⟩ : BufTy).Contents (Elt F)),
    binary main_arg1 main_v8 main_v9 (cmpi .eq : (⟨S16x50, .i32⟩ : BufTy).Contents (Elt F) → (⟨S16x50, .i32⟩ : BufTy).Contents (Elt F) → (⟨S16x50, .i1⟩ : BufTy).Contents (Elt F)),
    binary main_v7 main_v9 main_v10 (ori : (⟨S16x50, .i1⟩ : BufTy).Contents (Elt F) → (⟨S16x50, .i1⟩ : BufTy).Contents (Elt F) → (⟨S16x50, .i1⟩ : BufTy).Contents (Elt F)),
    nullary main_c_4 (constantI S_ 32 102#32),
    unary main_c_4 main_v11 (broadcastInDim S16x50 ![] bcast_S_S16x50 : (⟨S_, .i32⟩ : BufTy).Contents (Elt F) → (⟨S16x50, .i32⟩ : BufTy).Contents (Elt F)),
    binary main_arg1 main_v11 main_v12 (cmpi .eq : (⟨S16x50, .i32⟩ : BufTy).Contents (Elt F) → (⟨S16x50, .i32⟩ : BufTy).Contents (Elt F) → (⟨S16x50, .i1⟩ : BufTy).Contents (Elt F)),
    binary main_v10 main_v12 main_v13 (ori : (⟨S16x50, .i1⟩ : BufTy).Contents (Elt F) → (⟨S16x50, .i1⟩ : BufTy).Contents (Elt F) → (⟨S16x50, .i1⟩ : BufTy).Contents (Elt F)),
    nullary main_c_5 (constantI S_ 32 117#32),
    unary main_c_5 main_v14 (broadcastInDim S16x50 ![] bcast_S_S16x50 : (⟨S_, .i32⟩ : BufTy).Contents (Elt F) → (⟨S16x50, .i32⟩ : BufTy).Contents (Elt F)),
    binary main_arg1 main_v14 main_v15 (cmpi .eq : (⟨S16x50, .i32⟩ : BufTy).Contents (Elt F) → (⟨S16x50, .i32⟩ : BufTy).Contents (Elt F) → (⟨S16x50, .i1⟩ : BufTy).Contents (Elt F)),
    binary main_v13 main_v15 main_v16 (ori : (⟨S16x50, .i1⟩ : BufTy).Contents (Elt F) → (⟨S16x50, .i1⟩ : BufTy).Contents (Elt F) → (⟨S16x50, .i1⟩ : BufTy).Contents (Elt F)),
    nullary main_c_6 (constantI S_ 32 120#32),
    unary main_c_6 main_v17 (broadcastInDim S16x50 ![] bcast_S_S16x50 : (⟨S_, .i32⟩ : BufTy).Contents (Elt F) → (⟨S16x50, .i32⟩ : BufTy).Contents (Elt F)),
    binary main_arg1 main_v17 main_v18 (cmpi .eq : (⟨S16x50, .i32⟩ : BufTy).Contents (Elt F) → (⟨S16x50, .i32⟩ : BufTy).Contents (Elt F) → (⟨S16x50, .i1⟩ : BufTy).Contents (Elt F)),
    binary main_v16 main_v18 main_v19 (ori : (⟨S16x50, .i1⟩ : BufTy).Contents (Elt F) → (⟨S16x50, .i1⟩ : BufTy).Contents (Elt F) → (⟨S16x50, .i1⟩ : BufTy).Contents (Elt F)),
    nullary main_c_7 (constantI S_ 32 0#32),
    unary main_c_7 main_v20 (broadcastInDim S16x50 ![] bcast_S_S16x50 : (⟨S_, .i32⟩ : BufTy).Contents (Elt F) → (⟨S16x50, .i32⟩ : BufTy).Contents (Elt F)),
    binary main_arg1 main_v20 main_v21 (cmpi .eq : (⟨S16x50, .i32⟩ : BufTy).Contents (Elt F) → (⟨S16x50, .i32⟩ : BufTy).Contents (Elt F) → (⟨S16x50, .i1⟩ : BufTy).Contents (Elt F)),
    binary main_v19 main_v21 main_v22 (ori : (⟨S16x50, .i1⟩ : BufTy).Contents (Elt F) → (⟨S16x50, .i1⟩ : BufTy).Contents (Elt F) → (⟨S16x50, .i1⟩ : BufTy).Contents (Elt F)),
    nullary main_c_8 (constantI S_ 32 0#32) ]

abbrev opsWhere : List (HloOp τ sig (Elt F)) :=
  [ TRef.unary (TRef.of (T := ⟨S_, .i32⟩) main_c_8) (TRef.of (T := ⟨S_, .i32⟩) main_call1_v0) id,
    TRef.unary (TRef.of (T := ⟨S_, .i32⟩) main_call1_v0) (TRef.of (T := ⟨S16x50, .i32⟩) main_call1_v1) (broadcastInDim S16x50 ![] bcast_S_S16x50),
    TRef.ternary (TRef.of (T := ⟨S16x50, .i1⟩) main_v22) (TRef.of (T := ⟨S16x50, .i32⟩) main_call1_v1) (TRef.of (T := ⟨S16x50, .i32⟩) main_arg1) (TRef.of (T := ⟨S16x50, .i32⟩) main_v23) select ]

abbrev opsLoss : List (HloOp τ sig (Elt F)) :=
  [ nullary main_v24 (iotaInDim S16 32 0),
    unary main_v24 main_v25 (broadcastInDim S16x1 ![0] bcast_S16_S16x1_0 : (⟨S16, .i32⟩ : BufTy).Contents (Elt F) → (⟨S16x1, .i32⟩ : BufTy).Contents (Elt F)),
    nullary main_cst_9 (constant S_ .f32 0x00000000#32),
    unary main_cst_9 main_v26 (broadcastInDim S16x50257 ![] bcast_S_S16x50257 : (⟨S_, .f32⟩ : BufTy).Contents (Elt F) → (⟨S16x50257, .f32⟩ : BufTy).Contents (Elt F)),
    nullary main_c_10 (constantI S_ 32 0#32),
    unary main_c_10 main_v27 (broadcastInDim S16x1 ![] bcast_S_S16x1 : (⟨S_, .i32⟩ : BufTy).Contents (Elt F) → (⟨S16x1, .i32⟩ : BufTy).Contents (Elt F)),
    binary main_v25 main_v27 main_v28 (cmpi .slt : (⟨S16x1, .i32⟩ : BufTy).Contents (Elt F) → (⟨S16x1, .i32⟩ : BufTy).Contents (Elt F) → (⟨S16x1, .i1⟩ : BufTy).Contents (Elt F)),
    nullary main_c_11 (constantI S_ 32 16#32),
    unary main_c_11 main_v29 (broadcastInDim S16x1 ![] bcast_S_S16x1 : (⟨S_, .i32⟩ : BufTy).Contents (Elt F) → (⟨S16x1, .i32⟩ : BufTy).Contents (Elt F)),
    binary main_v25 main_v29 main_v30 (addi : (⟨S16x1, .i32⟩ : BufTy).Contents (Elt F) → (⟨S16x1, .i32⟩ : BufTy).Contents (Elt F) → (⟨S16x1, .i32⟩ : BufTy).Contents (Elt F)),
    ternary main_v28 main_v30 main_v25 main_v31 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_12 (constantI S_ 32 0#32),
    unary main_c_12 main_v32 (broadcastInDim S16x50 ![] bcast_S_S16x50 : (⟨S_, .i32⟩ : BufTy).Contents (Elt F) → (⟨S16x50, .i32⟩ : BufTy).Contents (Elt F)),
    binary main_v23 main_v32 main_v33 (cmpi .slt : (⟨S16x50, .i32⟩ : BufTy).Contents (Elt F) → (⟨S16x50, .i32⟩ : BufTy).Contents (Elt F) → (⟨S16x50, .i1⟩ : BufTy).Contents (Elt F)),
    nullary main_c_13 (constantI S_ 32 50257#32),
    unary main_c_13 main_v34 (broadcastInDim S16x50 ![] bcast_S_S16x50 : (⟨S_, .i32⟩ : BufTy).Contents (Elt F) → (⟨S16x50, .i32⟩ : BufTy).Contents (Elt F)),
    binary main_v23 main_v34 main_v35 (addi : (⟨S16x50, .i32⟩ : BufTy).Contents (Elt F) → (⟨S16x50, .i32⟩ : BufTy).Contents (Elt F) → (⟨S16x50, .i32⟩ : BufTy).Contents (Elt F)),
    ternary main_v33 main_v35 main_v23 main_v36 (select : (⟨S16x50, .i1⟩ : BufTy).Contents (Elt F) → (⟨S16x50, .i32⟩ : BufTy).Contents (Elt F) → (⟨S16x50, .i32⟩ : BufTy).Contents (Elt F) → (⟨S16x50, .i32⟩ : BufTy).Contents (Elt F)),
    unary main_v31 main_v37 (broadcastInDim S16x50 ![0, 1] bcast_S16x1_S16x50_0_1 : (⟨S16x1, .i32⟩ : BufTy).Contents (Elt F) → (⟨S16x50, .i32⟩ : BufTy).Contents (Elt F)),
    unary main_v37 main_v38 (broadcastInDim S16x50x1 ![0, 1] bcast_S16x50_S16x50x1_0_1 : (⟨S16x50, .i32⟩ : BufTy).Contents (Elt F) → (⟨S16x50x1, .i32⟩ : BufTy).Contents (Elt F)),
    unary main_v36 main_v39 (broadcastInDim S16x50x1 ![0, 1] bcast_S16x50_S16x50x1_0_1 : (⟨S16x50, .i32⟩ : BufTy).Contents (Elt F) → (⟨S16x50x1, .i32⟩ : BufTy).Contents (Elt F)),
    binary main_v38 main_v39 main_v40 ((fun a b => concatenate S16x50x2 2 [⟨S16x50x1, a⟩, ⟨S16x50x1, b⟩] concatenates_S16x50x1_S16x50x1_S16x50x2_d2) : (⟨S16x50x1, .i32⟩ : BufTy).Contents (Elt F) → (⟨S16x50x1, .i32⟩ : BufTy).Contents (Elt F) → (⟨S16x50x2, .i32⟩ : BufTy).Contents (Elt F)),
    nullary main_cst_14 (constant S_ .f32 0x3F666666#32),
    unary main_cst_14 main_v41 (broadcastInDim S16x50 ![] bcast_S_S16x50 : (⟨S_, .f32⟩ : BufTy).Contents (Elt F) → (⟨S16x50, .f32⟩ : BufTy).Contents (Elt F)),
    ternary main_v26 main_v40 main_v41 main_v42 ((fun x i u => Host.scatter scatter_S16x50257_S16x50x2_S16x50_n_01_01_2 (fun _ b => b) x i u) : (⟨S16x50257, .f32⟩ : BufTy).Contents (Elt F) → (⟨S16x50x2, .i32⟩ : BufTy).Contents (Elt F) → (⟨S16x50, .f32⟩ : BufTy).Contents (Elt F) → (⟨S16x50257, .f32⟩ : BufTy).Contents (Elt F)),
    nullary main_c_15 (constantI S_ 32 0#32),
    unary main_c_15 main_v43 (broadcastInDim S1 ![] bcast_S_S1 : (⟨S_, .i32⟩ : BufTy).Contents (Elt F) → (⟨S1, .i32⟩ : BufTy).Contents (Elt F)),
    nullary main_cst_16 (constant S_ .f32 0x00000000#32),
    unary main_cst_16 main_v44 (broadcastInDim S16 ![] bcast_S_S16 : (⟨S_, .f32⟩ : BufTy).Contents (Elt F) → (⟨S16, .f32⟩ : BufTy).Contents (Elt F)),
    ternary main_v42 main_v43 main_v44 main_v45 ((fun x i u => Host.scatter scatter_S16x50257_S1_S16_0_1_1_0 (fun _ b => b) x i u) : (⟨S16x50257, .f32⟩ : BufTy).Contents (Elt F) → (⟨S1, .i32⟩ : BufTy).Contents (Elt F) → (⟨S16, .f32⟩ : BufTy).Contents (Elt F) → (⟨S16x50257, .f32⟩ : BufTy).Contents (Elt F)),
    nullary main_cst_17 (constant S_ .f32 0xFF800000#32),
    binary main_v45 main_cst_17 main_v46 ((fun x v => Host.reduce FloatOps.maximumf x v reducesTo_S16x50257_S16_d1 h_S_) : (⟨S16x50257, .f32⟩ : BufTy).Contents (Elt F) → (⟨S_, .f32⟩ : BufTy).Contents (Elt F) → (⟨S16, .f32⟩ : BufTy).Contents (Elt F)),
    nullary main_cst_18 (constant S_ .f32 0xFF800000#32),
    unary main_cst_18 main_v47 (broadcastInDim S16 ![] bcast_S_S16 : (⟨S_, .f32⟩ : BufTy).Contents (Elt F) → (⟨S16, .f32⟩ : BufTy).Contents (Elt F)),
    binary main_v47 main_v46 main_v48 (maximumf : (⟨S16, .f32⟩ : BufTy).Contents (Elt F) → (⟨S16, .f32⟩ : BufTy).Contents (Elt F) → (⟨S16, .f32⟩ : BufTy).Contents (Elt F)),
    unary main_v48 main_v49 (broadcastInDim S16x1 ![0] bcast_S16_S16x1_0 : (⟨S16, .f32⟩ : BufTy).Contents (Elt F) → (⟨S16x1, .f32⟩ : BufTy).Contents (Elt F)),
    unary main_v49 main_v50 (broadcastInDim S16x50257 ![0, 1] bcast_S16x1_S16x50257_0_1 : (⟨S16x1, .f32⟩ : BufTy).Contents (Elt F) → (⟨S16x50257, .f32⟩ : BufTy).Contents (Elt F)),
    binary main_v45 main_v50 main_v51 (subf : (⟨S16x50257, .f32⟩ : BufTy).Contents (Elt F) → (⟨S16x50257, .f32⟩ : BufTy).Contents (Elt F) → (⟨S16x50257, .f32⟩ : BufTy).Contents (Elt F)),
    unary main_v51 main_v52 (Host.exp : (⟨S16x50257, .f32⟩ : BufTy).Contents (Elt F) → (⟨S16x50257, .f32⟩ : BufTy).Contents (Elt F)),
    nullary main_cst_19 (constant S_ .f32 0x00000000#32),
    binary main_v52 main_cst_19 main_v53 ((fun x v => Host.reduceAdd x v reducesTo_S16x50257_S16_d1 h_S_) : (⟨S16x50257, .f32⟩ : BufTy).Contents (Elt F) → (⟨S_, .f32⟩ : BufTy).Contents (Elt F) → (⟨S16, .f32⟩ : BufTy).Contents (Elt F)),
    unary main_v53 main_v54 (broadcastInDim S16x1 ![0] bcast_S16_S16x1_0 : (⟨S16, .f32⟩ : BufTy).Contents (Elt F) → (⟨S16x1, .f32⟩ : BufTy).Contents (Elt F)),
    unary main_v54 main_v55 (broadcastInDim S16x50257 ![0, 1] bcast_S16x1_S16x50257_0_1 : (⟨S16x1, .f32⟩ : BufTy).Contents (Elt F) → (⟨S16x50257, .f32⟩ : BufTy).Contents (Elt F)),
    binary main_v52 main_v55 main_v56 (Host.divf : (⟨S16x50257, .f32⟩ : BufTy).Contents (Elt F) → (⟨S16x50257, .f32⟩ : BufTy).Contents (Elt F) → (⟨S16x50257, .f32⟩ : BufTy).Contents (Elt F)),
    unary main_v56 main_v57 (Host.log : (⟨S16x50257, .f32⟩ : BufTy).Contents (Elt F) → (⟨S16x50257, .f32⟩ : BufTy).Contents (Elt F)),
    binary main_v57 main_v6 main_v58 (subf : (⟨S16x50257, .f32⟩ : BufTy).Contents (Elt F) → (⟨S16x50257, .f32⟩ : BufTy).Contents (Elt F) → (⟨S16x50257, .f32⟩ : BufTy).Contents (Elt F)),
    binary main_v56 main_v58 main_v59 (mulf : (⟨S16x50257, .f32⟩ : BufTy).Contents (Elt F) → (⟨S16x50257, .f32⟩ : BufTy).Contents (Elt F) → (⟨S16x50257, .f32⟩ : BufTy).Contents (Elt F)),
    nullary main_cst_20 (constant S_ .f32 0x00000000#32),
    binary main_v59 main_cst_20 main_v60 ((fun x v => Host.reduceAdd x v reducesTo_S16x50257_S_d0_1 h_S_) : (⟨S16x50257, .f32⟩ : BufTy).Contents (Elt F) → (⟨S_, .f32⟩ : BufTy).Contents (Elt F) → (⟨S_, .f32⟩ : BufTy).Contents (Elt F)),
    nullary main_cst_21 (constant S_ .f32 0x41800000#32),
    binary main_v60 main_cst_21 main_v61 (Host.divf : (⟨S_, .f32⟩ : BufTy).Contents (Elt F) → (⟨S_, .f32⟩ : BufTy).Contents (Elt F) → (⟨S_, .f32⟩ : BufTy).Contents (Elt F)) ]

theorem ops_split : (Cert.ReferenceIdeal.ValueP.ops (F := F))
    = opsMean ++ (opsZero ++ (opsLogSoftmax ++ (opsSpecial ++ (opsWhere ++ opsLoss)))) := rfl
end

variable (V : Valuation τ sig (Elt Ideal))

/-! ## The mean -/

theorem mean_v2 : after (opsMean (F := Ideal)) V (Proc.devRef .tc main_v2) = meanRef (V (Proc.devRef .tc main_arg0)) := by
  after_results_simp <;> rfl
theorem mean_arg1 : after (opsMean (F := Ideal)) V (Proc.devRef .tc main_arg1) = V (Proc.devRef .tc main_arg1) := by
  after_results_simp <;> rfl

/-! ## Zeroing column 0 -/

theorem zero_v5 : after (opsZero (F := Ideal)) V (Proc.devRef .tc main_v5) = zeroCol0 (V (Proc.devRef .tc main_v2)) := by
  after_results_simp <;> rfl
theorem zero_arg1 : after (opsZero (F := Ideal)) V (Proc.devRef .tc main_arg1) = V (Proc.devRef .tc main_arg1) := by
  after_results_simp <;> rfl

/-! ## The row-wise log-softmax -/

set_option maxRecDepth 8192 in
theorem lsm_v6 : after (opsLogSoftmax (F := Ideal)) V (Proc.devRef .tc main_v6) = logSoftmax (V (Proc.devRef .tc main_v5)) := by
  after_results_simp
  simp only [Cert.Tail.cast_cast_cancel]
  rfl
theorem lsm_arg1 : after (opsLogSoftmax (F := Ideal)) V (Proc.devRef .tc main_arg1) = V (Proc.devRef .tc main_arg1) := by
  after_results_simp <;> rfl

/-! ## Which keyword ids are special -/

theorem special_v22 : after (opsSpecial (F := Ideal)) V (Proc.devRef .tc main_v22) = isSpecial (V (Proc.devRef .tc main_arg1)) := by
  after_results_simp <;> rfl
theorem special_c8 : after (opsSpecial (F := Ideal)) V (Proc.devRef .tc main_c_8) = constantI S_ 32 0#32 := by
  after_results_simp <;> rfl
theorem special_arg1 : after (opsSpecial (F := Ideal)) V (Proc.devRef .tc main_arg1) = V (Proc.devRef .tc main_arg1) := by
  after_results_simp <;> rfl
theorem special_v6 : after (opsSpecial (F := Ideal)) V (Proc.devRef .tc main_v6) = V (Proc.devRef .tc main_v6) := by
  after_results_simp <;> rfl

/-! ## The special ids replaced by 0 -/

theorem where_v23 : after (opsWhere (F := Ideal)) V (Proc.devRef .tc main_v23)
    = select (V (Proc.devRef .tc main_v22))
        (broadcastInDim S16x50 ![] bcast_S_S16x50 (id (V (Proc.devRef .tc main_c_8))))
        (V (Proc.devRef .tc main_arg1)) := by
  after_results_simp <;> rfl
theorem where_v6 : after (opsWhere (F := Ideal)) V (Proc.devRef .tc main_v6) = V (Proc.devRef .tc main_v6) := by
  after_results_simp <;> rfl

/-! ## The keyword matrix, its softmax, and the Kullback–Leibler sum -/

set_option maxRecDepth 8192 in
set_option maxHeartbeats 4000000 in
theorem loss_v61 : after (opsLoss (F := Ideal)) V (Proc.devRef .tc main_v61)
    = klMean (softmax (zeroCol0 (kwMatrix (V (Proc.devRef .tc main_v23))))) (V (Proc.devRef .tc main_v6)) := by
  after_results_simp <;> rfl

end Cert.TailRef

namespace Cert.Tail

open Idealize.ShloMosaic Idealize.ShloMosaic.StableHlo Cert.TailRef

/-! ## The six stretches composed -/

/-- The reference's result buffer after its 102 operations: loss of its own mean of the logits and the keywords. -/
theorem reference_tail (W : Valuation Cert.ReferenceIdeal.τ Cert.ReferenceIdeal.sig (Elt Ideal)) :
    StableHlo.after (Cert.ReferenceIdeal.ValueP.ops (F := Ideal)) W (Proc.devRef .tc Cert.ReferenceIdeal.main_v61)
      = loss (meanRef (W (Proc.devRef .tc Cert.ReferenceIdeal.main_arg0))) (W (Proc.devRef .tc Cert.ReferenceIdeal.main_arg1)) := by
  rw [ops_split, StableHlo.after_append, StableHlo.after_append, StableHlo.after_append, StableHlo.after_append, StableHlo.after_append,
    loss_v61, where_v23, where_v6, special_v22, special_c8, special_arg1, special_v6, lsm_v6, lsm_arg1, zero_v5, zero_arg1,
    mean_v2, mean_arg1]
  rfl

end Cert.Tail

end
-- ==== Proof.RefValue.lean ====
/-
  The idealized reference program's result. Its operations never write the logits or the keywords; its mean over the
  sequence axis, (0 + sum over s of a[b, s, v]) / 256, is the kernel's (sum over s of a[b, s, v]) * 2^-8 on every
  extended real — dividing by 256 is multiplying by its reciprocal, infinite sums included —, and the rest of its
  operations apply the same function loss.
-/
import proofs.«147636_j7035156431386_1_alg».proof.Proof.RefRun
import proofs.«147636_j7035156431386_1_alg».proof.Proof.TailReference
import proofs.«147636_j7035156431386_1_alg».proof.Proof.IdealMean

set_option maxRecDepth 16384

noncomputable section

namespace Cert.ReferenceIdeal.Hand

open Cert.ReferenceIdeal Cert.ReferenceIdeal.Gen
open Idealize.ShloMosaic Idealize.ShloMosaic.TcCoe Idealize.SL.Sem

/-! ## The constants -/

theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num
theorem ofBits_zero : Ideal.ofBits .f32 0x00000000#32 = 0 := by
  simp [Ideal.ofBits, Ideal.ieee]

/-! ## The two means are one function -/

/-- The reference's mean is the kernel's: a / 256 = a * (1/256) on the extended reals, and 0 + s = s. -/
theorem meanRef_eq (a : Cert.KernelIdeal.S16x256x50257.Idx → EReal) :
    Cert.Tail.meanRef a = Cert.KernelIdeal.Hand.rowMean a := by
  funext j
  unfold Cert.Tail.meanRef Cert.KernelIdeal.Hand.rowMean Cert.KernelIdeal.Hand.invN
  simp only [Host.divf, Host.reduceAdd, broadcastInDim, constant, Ideal.hostDivf_def, Ideal.hostReduceAdd_def, Ideal.ofBits_def]
  rw [Ideal.hostReduceAdd_single _ Cert.KernelIdeal.Hand.reducesArr, ofBits_256, Ideal.div_coe (by norm_num), ofBits_zero, zero_add,
    ofBits_inv256]

/-! ## The arguments are never written -/

theorem ops_keep : (ValueP.ops (F := Ideal)).Forall fun op =>
    Proc.devRef .tc main_arg0 ∉ op.writes ∧ Proc.devRef .tc main_arg1 ∉ op.writes := by
  simp only [List.Forall]; repeat' constructor
  all_goals (simp only [StableHlo.nullary_writes, StableHlo.unary_writes, StableHlo.binary_writes, StableHlo.ternary_writes, Finset.mem_singleton]; exact StableHlo.devRef_ne_of_ne (by decide))

theorem keeps_arg0 (W : Valuation τ sig (Elt Ideal)) :
    StableHlo.after (ValueP.ops (F := Ideal)) W (Proc.devRef .tc main_arg0) = W (Proc.devRef .tc main_arg0) :=
  StableHlo.after_of_forall_not_mem _ W fun op hop => ((List.forall_iff_forall_mem.mp ops_keep) op hop).1
theorem keeps_arg1 (W : Valuation τ sig (Elt Ideal)) :
    StableHlo.after (ValueP.ops (F := Ideal)) W (Proc.devRef .tc main_arg1) = W (Proc.devRef .tc main_arg1) :=
  StableHlo.after_of_forall_not_mem _ W fun op hop => ((List.forall_iff_forall_mem.mp ops_keep) op hop).2

/-! ## The run -/

/-- THE VALUE RUN of the reference: it terminates, its result ends at loss of rowMean of the logits and the keywords,
    and both arguments end unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61)
        = Cert.Tail.loss (Cert.KernelIdeal.Hand.rowMean (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      (h c main_v61).trans ((Cert.Tail.reference_tail (StableHlo.launchContents m c)).trans (by rw [meanRef_eq])),
      (h c main_arg0).trans ((keeps_arg0 _).trans rfl),
      (h c main_arg1).trans ((keeps_arg1 _).trans rfl)⟩) (ValueP.run m ρ)

end Cert.ReferenceIdeal.Hand

end
-- ==== Proof.lean ====
/-
  The kernel: the mean of the logits over the sequence axis as one pallas_call over 99 blocks of 512 vocabulary columns
  (the last block overhanging the arrays: 50257 = 98 * 512 + 81), the per-block mean formed as the sum over the axis times
  2^-8; then, on the host, the Kullback–Leibler loss of a keyword distribution against the log-softmax of that mean. The
  reference forms the mean as the sum (from zero) divided by 256 and applies the same host operations.

  The claims. As printed, the program terminates, faults nowhere and leaves the logits and the keywords unchanged
  (Proof/KernelFrame.lean: nothing is named of the launch's result there, since the overhanging block's staging words are
  not named). At the ideal instance the launch's result array ends at rowMean of the logits — at (b, v) the sum over s of
  a[b, s, v], times 2^-8 — because a column's sum reads that column only and the 99 blocks cover the 50257 columns
  (Proof/IdealRun.lean), and the host operations apply one function, loss, to it and the keywords (Proof/IdealValue.lean).
  The reference's mean is the same function of the logits — dividing an extended real by 256 is multiplying it by 1/256,
  and adding zero changes nothing, with no finiteness needed — and its remaining operations apply the same loss
  (Proof/RefValue.lean). So the two results are equal, whatever the inputs. The idealization rewrote no operation, so
  there is nothing to preserve.
-/
import proofs.«147636_j7035156431386_1_alg».proof.Defs
import proofs.«147636_j7035156431386_1_alg».proof.Proof.Gen.Kernel
import proofs.«147636_j7035156431386_1_alg».proof.Proof.Gen.KernelIdeal
import proofs.«147636_j7035156431386_1_alg».proof.Proof.Gen.ReferenceIdeal
import proofs.«147636_j7035156431386_1_alg».proof.Proof.Gen.Pre_finite_inputs
import proofs.«147636_j7035156431386_1_alg».proof.Proof.KernelFrame
import proofs.«147636_j7035156431386_1_alg».proof.Proof.IdealValue
import proofs.«147636_j7035156431386_1_alg».proof.Proof.RefValue
import Idealize.ShloMosaic.Adequacy
import Idealize.ShloMosaic.Init

noncomputable section

namespace Cert.Proof

open Idealize.ShloMosaic Idealize.SL.Sem

/-- The printed program runs and leaves its arguments unchanged. -/
theorem frame_k : Cert.frame_Kernel := fun m ρ _ => Cert.Kernel.Hand.frame m ρ

/-- So does the idealized program: its value run with the result dropped. -/
theorem frame_ki : Cert.frame_KernelIdeal := fun m ρ _ =>
  (θ_run Cert.KernelIdeal.defs _ _).mono (fun _ h c => (h c).2) (Cert.KernelIdeal.Hand.run_value m ρ)

/-- And the idealized reference: its value run with the result dropped. -/
theorem frame_ri : Cert.frame_ReferenceIdeal := fun m ρ _ =>
  (θ_run Cert.ReferenceIdeal.defs _ _).mono (fun _ h c => (h c).2) (Cert.ReferenceIdeal.Hand.run_value m ρ)

/-- The idealization rewrote nothing. -/
theorem preserves : Cert.preserves_Kernel_KernelIdeal := trivial

/-- From memories agreeing on the logits and the keywords both idealized programs end with the loss of rowMean of the
    logits and the keywords. -/
theorem algebraic : Cert.algebraic_KernelIdeal_ReferenceIdeal := by
  intro m ρ m' ρ' _ hagree
  refine ⟨fun c => Cert.Tail.loss (Cert.KernelIdeal.Hand.rowMean (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
